-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v7_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S2x4096x128 : Shape := ⟨3, ![2, 4096, 128]⟩
abbrev S4096x4096 : Shape := ⟨2, ![4096, 4096]⟩
abbrev S1024x4096 : Shape := ⟨2, ![1024, 4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S2x4096x128 : S_.BroadcastsInDim S2x4096x128 (![] : Fin 0 → Fin S2x4096x128.rank)
  reducesTo_S2x4096x128_S_d0_1_2 : S2x4096x128.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S1024x4096 .f32) (main_arg5 : FVec F S1024x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  main_v28

def fn {F : FTy → Type} [FloatOps F] (main_arg0 : FVec F S2x4096x4096 .f32) (main_arg1 : FVec F S2x4096x128 .f32) (main_arg2 : FVec F S2x4096x128 .f32) (main_arg3 : FVec F S4096x4096 .f32) (main_arg4 : FVec F S1024x4096 .f32) (main_arg5 : FVec F S1024x4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096x128 .f32 := Host.absf main_arg1
  let main_cst_0 : FVec F S_ .f32 := constant S_ .f32 0x7F800000#32
  let main_v5 : FVec F S2x4096x128 .f32 := broadcastInDim S2x4096x128 ![] bcast_S_S2x4096x128 main_cst_0
  let main_v6 : IVec S2x4096x128 1 := cmpf .olt main_v4 main_v5
  let main_c_1 : IVec S_ 1 := constantI S_ 1 1#1
  let main_v7 : IVec S_ 1 := (fun x v => Host.reduce IntOp.andi x v reducesTo_S2x4096x128_S_d0_1_2 h_S_) main_v6 main_c_1
  let main_v8 : IVec S_ 1 := andi main_v3 main_v7
  let main_v9 : FVec F S2x4096x128 .f32 := Host.absf main_arg2
  let main_cst_2 : FVec F S_ .f32 := constant S_ .f32 0x7F800000#32
  let main_v10 : FVec F S2x4096x128 .f32 := broadcastInDim S2x4096x128 ![] bcast_S_S2x4096x128 main_cst_2
  let main_v11 : IVec S2x4096x128 1 := cmpf .olt main_v9 main_v10
  let main_c_3 : IVec S_ 1 := constantI S_ 1 1#1
  let main_v12 : IVec S_ 1 := (fun x v => Host.reduce IntOp.andi x v reducesTo_S2x4096x128_S_d0_1_2 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S2x4096x4096 : Shape := ⟨3, ![2, 4096, 4096]⟩
abbrev S2x4096x128 : Shape := ⟨3, ![2, 4096, 128]⟩
abbrev S4096x4096 : Shape := ⟨2, ![4096, 4096]⟩
abbrev S1024x4096 : Shape := ⟨2, ![1024, 4096]⟩
abbrev S8x128x4096 : Shape := ⟨3, ![8, 128, 4096]⟩
abbrev S8x256x4096 : Shape := ⟨3, ![8, 256, 4096]⟩
abbrev S2x32x4096x128 : Shape := ⟨4, ![2, 32, 4096, 128]⟩
abbrev S1x1024x4096 : Shape := ⟨3, ![1, 1024, 4096]⟩
abbrev S512x4096 : Shape := ⟨2, ![512, 4096]⟩
abbrev S1x1024x128 : Shape := ⟨3, ![1, 1024, 128]⟩
abbrev S1x4x1024x128 : Shape := ⟨4, ![1, 4, 1024, 128]⟩
abbrev S1024x512 : Shape := ⟨2, ![1024, 512]⟩
abbrev S1024x128 : Shape := ⟨2, ![1024, 128]⟩
abbrev S1024x64 : Shape := ⟨2, ![1024, 64]⟩
abbrev S1x1x1024x128 : Shape := ⟨4, ![1, 1, 1024, 128]⟩
abbrev S2x8x4096x128 : Shape := ⟨4, ![2, 8, 4096, 128]⟩
abbrev S1x256x4096 : Shape := ⟨3, ![1, 256, 4096]⟩
abbrev S256x4096 : Shape := ⟨2, ![256, 4096]⟩
abbrev S1024x256 : Shape := ⟨2, ![1024, 256]⟩

abbrev nBuf : Space → Nat
  | .hbm => 15
  | .vmem => 22
  | .smem => 0
  | _ => 0

abbrev bufTy : (tb : Table) → Fin (tcTables nBuf tb) → BufTy
  | .hbm, ⟨0, _⟩ => ⟨S2x4096x4096, .f32⟩
  | .hbm, ⟨1, _⟩ => ⟨S2x4096x128, .f32⟩
  | .hbm, ⟨2, _⟩ => ⟨S2x4096x128, .f32⟩
  | .hbm, ⟨3, _⟩ => ⟨S4096x4096, .f32⟩
  | .hbm, ⟨4, _⟩ => ⟨S1024x4096, .f32⟩
  | .hbm, ⟨5, _⟩ => ⟨S1024x4096, .f32⟩
  | .hbm, ⟨6, _⟩ => ⟨S2x4096x4096, .bf16⟩
  | .hbm, ⟨7, _⟩ => ⟨S4096x4096, .bf16⟩
  | .hbm, ⟨8, _⟩ => ⟨S8x128x4096, .f32⟩
  | .hbm, ⟨9, _⟩ => ⟨S8x128x4096, .f32⟩
  | .hbm, ⟨10, _⟩ => ⟨S8x256x4096, .f32⟩
  | .hbm, ⟨11, _⟩ => ⟨S8x256x4096, .bf16⟩
  | .hbm, ⟨12, _⟩ => ⟨S2x32x4096x128, .f32⟩
  | .hbm, ⟨13, _⟩ => ⟨S2x8x4096x128, .f32⟩
  | .hbm, ⟨14, _⟩ => ⟨S2x8x4096x128, .f32⟩
  | .local _ .vmem, ⟨0, _⟩ => ⟨S1x1024x4096, .bf16⟩
  | .local _ .vmem, ⟨1, _⟩ => ⟨S1x1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x4x1024x128, .f32⟩
  | .local _ .vmem, ⟨9, _⟩ => ⟨S1x4x1024x128, .f32⟩
  | .local _ .vmem, ⟨10, _⟩ => ⟨S1x1024x4096, .bf16⟩
  | .local _ .vmem, ⟨11, _⟩ => ⟨S1x1024x4096, .bf16⟩
  | .local _ .vmem, ⟨12, _⟩ => ⟨S1x256x4096, .bf16⟩
  | .local _ .vmem, ⟨13, _⟩ => ⟨S1x256x4096, .bf16⟩
  | .local _ .vmem, ⟨14, _⟩ => ⟨S1x1024x128, .f32⟩
  | .local _ .vmem, ⟨15, _⟩ => ⟨S1x1024x128, .f32⟩
  | .local _ .vmem, ⟨16, _⟩ => ⟨S1x1024x128, .f32⟩
  | .local _ .vmem, ⟨17, _⟩ => ⟨S1x1024x128, .f32⟩
  | .local _ .vmem, ⟨18, _⟩ => ⟨S1x1x1024x128, .f32⟩
  | .local _ .vmem, ⟨19, _⟩ => ⟨S1x1x1024x128, .f32⟩
  | .local _ .vmem, ⟨20, _⟩ => ⟨S1x1x1024x128, .f32⟩
  | .local _ .vmem, ⟨21, _⟩ => ⟨S1x1x1024x128, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev grid1 : Pipeline.Grid := ⟨3, ![2, 4, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage1_0 : Fin 2 → Memref sig .tc .vmem S1x1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 2 → Memref sig .tc .vmem S1x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1x1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x1x1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

class Facts₀ : Prop where
  bitsLt_bf16_f32 : FTy.bits .bf16 < FTy.bits .f32
  shapeCasts_S1024x4096_S8x128x4096 : S1024x4096.ShapeCasts S8x128x4096
  concatenates_S8x128x4096_S8x128x4096_S8x256x4096_d1 : Shape.Concatenates [S8x128x4096, S8x128x4096] S8x256x4096 1
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  slices_S1024x512_o0_0_S1024x128 : S1024x512.Slices ![0, 0] S1024x128
  slices_S1024x128_o0_0_S1024x64 : S1024x128.Slices ![0, 0] S1024x64
  slices_S1024x128_o0_64_S1024x64 : S1024x128.Slices ![0, 64] S1024x64
  concatenates_S1024x64_S1024x64_S1024x128_d1 : Shape.Concatenates [S1024x64, S1024x64] S1024x128 1
  inb_S1x4x1024x128_S1x1x1024x128_0_0_0_0 : ∀ a, (![0, 0, 0, 0] : Fin 4 → Nat) a + S1x1x1024x128.size a ≤ S1x4x1024x128.size a
  h_S1x1x1024x128 : 0 < S1x1x1024x128.numel
  shapeCasts_S1x1x1024x128_S1024x128 : S1x1x1024x128.ShapeCasts S1024x128
  shapeCasts_S1024x128_S1x1x1024x128 : S1024x128.ShapeCasts S1x1x1024x128
  slices_S1024x512_o0_128_S1024x128 : S1024x512.Slices ![0, 128] S1024x128
  inb_S1x4x1024x128_S1x1x1024x128_0_1_0_0 : ∀ a, (![0, 1, 0, 0] : Fin 4 → Nat) a + S1x1x1024x128.size a ≤ S1x4x1024x128.size a
  slices_S1024x512_o0_256_S1024x128 : S1024x512.Slices ![0, 256] S1024x128
  inb_S1x4x1024x128_S1x1x1024x128_0_2_0_0 : ∀ a, (![0, 2, 0, 0] : Fin 4 → Nat) a + S1x1x1024x128.size a ≤ S1x4x1024x128.size a
  slices_S1024x512_o0_384_S1024x128 : S1024x512.Slices ![0, 384] S1024x128
  inb_S1x4x1024x128_S1x1x1024x128_0_3_0_0 : ∀ a, (![0, 3, 0, 0] : Fin 4 → Nat) a + S1x1x1024x128.size a ≤ S1x4x1024x128.size a
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  slices_S1024x256_o0_0_S1024x128 : S1024x256.Slices ![0, 0] S1024x128
  slices_S1024x256_o0_128_S1024x128 : S1024x256.Slices ![0, 128] S1024x128
  inb_S1x1x1024x128_S1x1x1024x128_0_0_0_0 : ∀ a, (![0, 0, 0, 0] : Fin 4 → Nat) a + S1x1x1024x128.size a ≤ S1x1x1024x128.size a
  dot_S1024x4096_S512x4096_S1024x512_1_1_0_0_n_n_wf : DotDims.WF S1024x4096 S512x4096 S1024x512 [1] [1] [0] [0] [] []
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4096.size a ≤ S2x4096x4096.size a
  hwx0_0 : ∀ i : grid0.Coords, EltTy.bits .bf16 = 32 ∨ (Rect.block (s := S2x4096x4096) S1x1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S2x4096x128.size a
  hwx0_2 : ∀ i : grid0.Coords, EltTy.bits .f32 = 32 ∨ (Rect.block (s := S2x4096x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S2x4096x128.size a
  hwx0_3 : ∀ i : grid0.Coords, EltTy.bits .f32 = 32 ∨ (Rect.block (s := S2x4096x128) S1x1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x1024x128.size a ≤ S2x32x4096x128.size a
  hwx0_4 : ∀ i : grid0.Coords, EltTy.bits .f32 = 32 ∨ (Rect.block (s := S2x32x4096x128) S1x4x1024x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x4096.size a ≤ S2x4096x4096.size a
  hwx1_0 : ∀ i : grid1.Coords, EltTy.bits .bf16 = 32 ∨ (Rect.block (s := S2x4096x4096) S1x1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x4096.size a ≤ S8x256x4096.size a
  hwx1_1 : ∀ i : grid1.Coords, EltTy.bits .bf16 = 32 ∨ (Rect.block (s := S8x256x4096) S1x256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S2x4096x128.size a
  hwx1_2 : ∀ i : grid1.Coords, EltTy.bits .f32 = 32 ∨ (Rect.block (s := S2x4096x128) S1x1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S2x4096x128.size a
  hwx1_3 : ∀ i : grid1.Coords, EltTy.bits .f32 = 32 ∨ (Rect.block (s := S2x4096x128) S1x1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1024x128.size a ≤ S2x8x4096x128.size a
  hwx1_4 : ∀ i : grid1.Coords, EltTy.bits .f32 = 32 ∨ (Rect.block (s := S2x8x4096x128) S1x1x1024x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1024x128.size a ≤ S2x8x4096x128.size a
  hwx1_5 : ∀ i : grid1.Coords, EltTy.bits .f32 = 32 ∨ (Rect.block (s := S2x8x4096x128) S1x1x1024x128.size (cc1_transform_5 i) (hinb1_5 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf
def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v0) S1x1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x4x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S1x1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1x1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S1x1x1024x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S1x1x1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x4096x4096 : Shape := ⟨3, ![2, 4096, 4096]⟩
abbrev S2x4096x128 : Shape := ⟨3, ![2, 4096, 128]⟩
abbrev S4096x4096 : Shape := ⟨2, ![4096, 4096]⟩
abbrev S1024x4096 : Shape := ⟨2, ![1024, 4096]⟩
abbrev S2x4096x32x128 : Shape := ⟨4, ![2, 4096, 32, 128]⟩
abbrev S2x32x4096x128 : Shape := ⟨4, ![2, 32, 4096, 128]⟩
abbrev S2x4096x1024 : Shape := ⟨3, ![2, 4096, 1024]⟩
abbrev S2x4096x8x128 : Shape := ⟨4, ![2, 4096, 8, 128]⟩
abbrev S2x8x4096x128 : Shape := ⟨4, ![2, 8, 4096, 128]⟩
abbrev S2x1x4096x128 : Shape := ⟨4, ![2, 1, 4096, 128]⟩
abbrev S2x32x4096x64 : Shape := ⟨4, ![2, 32, 4096, 64]⟩
abbrev S2x8x4096x64 : Shape := ⟨4, ![2, 8, 4096, 64]⟩

abbrev nBuf : Space → Nat
  | .hbm => 35
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x128, .f32⟩
  | .hbm, ⟨2, _⟩ => ⟨S2x4096x128, .f32⟩
  | .hbm, ⟨3, _⟩ => ⟨S4096x4096, .f32⟩
  | .hbm, ⟨4, _⟩ => ⟨S1024x4096, .f32⟩
  | .hbm, ⟨5, _⟩ => ⟨S1024x4096, .f32⟩
  | .hbm, ⟨6, _⟩ => ⟨S2x4096x4096, .f32⟩
  | .hbm, ⟨7, _⟩ => ⟨S2x4096x32x128, .f32⟩
  | .hbm, ⟨8, _⟩ => ⟨S2x32x4096x128, .f32⟩
  | .hbm, ⟨9, _⟩ => ⟨S2x4096x1024, .f32⟩
  | .hbm, ⟨10, _⟩ => ⟨S2x4096x8x128, .f32⟩
  | .hbm, ⟨11, _⟩ => ⟨S2x8x4096x128, .f32⟩
  | .hbm, ⟨12, _⟩ => ⟨S2x4096x1024, .f32⟩
  | .hbm, ⟨13, _⟩ => ⟨S2x4096x8x128, .f32⟩
  | .hbm, ⟨14, _⟩ => ⟨S2x8x4096x128, .f32⟩
  | .hbm, ⟨15, _⟩ => ⟨S2x1x4096x128, .f32⟩
  | .hbm, ⟨16, _⟩ => ⟨S2x1x4096x128, .f32⟩
  | .hbm, ⟨17, _⟩ => ⟨S2x32x4096x128, .f32⟩
  | .hbm, ⟨18, _⟩ => ⟨S2x32x4096x128, .f32⟩
  | .hbm, ⟨19, _⟩ => ⟨S2x32x4096x64, .f32⟩
  | .hbm, ⟨20, _⟩ => ⟨S2x32x4096x64, .f32⟩
  | .hbm, ⟨21, _⟩ => ⟨S2x32x4096x64, .f32⟩
  | .hbm, ⟨22, _⟩ => ⟨S2x32x4096x128, .f32⟩
  | .hbm, ⟨23, _⟩ => ⟨S2x32x4096x128, .f32⟩
  | .hbm, ⟨24, _⟩ => ⟨S2x32x4096x128, .f32⟩
  | .hbm, ⟨25, _⟩ => ⟨S2x32x4096x128, .f32⟩
  | .hbm, ⟨26, _⟩ => ⟨S2x8x4096x128, .f32⟩
  | .hbm, ⟨27, _⟩ => ⟨S2x8x4096x128, .f32⟩
  | .hbm, ⟨28, _⟩ => ⟨S2x8x4096x64, .f32⟩
  | .hbm, ⟨29, _⟩ => ⟨S2x8x4096x64, .f32⟩
  | .hbm, ⟨30, _⟩ => ⟨S2x8x4096x64, .f32⟩
  | .hbm, ⟨31, _⟩ => ⟨S2x8x4096x128, .f32⟩
  | .hbm, ⟨32, _⟩ => ⟨S2x8x4096x128, .f32⟩
  | .hbm, ⟨33, _⟩ => ⟨S2x8x4096x128, .f32⟩
  | .hbm, ⟨34, _⟩ => ⟨S2x8x4096x128, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]

class Facts₀ : Prop where
  shapeCasts_S2x4096x4096_S2x4096x32x128 : S2x4096x4096.ShapeCasts S2x4096x32x128
  transposes_S2x4096x32x128_S2x32x4096x128_0_2_1_3 : S2x4096x32x128.Transposes [0, 2, 1, 3] S2x32x4096x128
  shapeCasts_S2x4096x1024_S2x4096x8x128 : S2x4096x1024.ShapeCasts S2x4096x8x128
  transposes_S2x4096x8x128_S2x8x4096x128_0_2_1_3 : S2x4096x8x128.Transposes [0, 2, 1, 3] S2x8x4096x128
  bcast_S2x4096x128_S2x1x4096x128_0_2_3 : S2x4096x128.BroadcastsInDim S2x1x4096x128 (![0, 2, 3] : Fin 3 → Fin S2x1x4096x128.rank)
  bcast_S2x1x4096x128_S2x32x4096x128_0_1_2_3 : S2x1x4096x128.BroadcastsInDim S2x32x4096x128 (![0, 1, 2, 3] : Fin 4 → Fin S2x32x4096x128.rank)
  slices_S2x32x4096x128_S2x32x4096x64_0_0_0_0 : S2x32x4096x128.Slices ![0, 0, 0, 0] S2x32x4096x64
  slices_S2x32x4096x128_S2x32x4096x64_0_0_0_64 : S2x32x4096x128.Slices ![0, 0, 0, 64] S2x32x4096x64
  concatenates_S2x32x4096x64_S2x32x4096x64_S2x32x4096x128_d3 : Shape.Concatenates [S2x32x4096x64, S2x32x4096x64] S2x32x4096x128 3
  bcast_S2x1x4096x128_S2x8x4096x128_0_1_2_3 : S2x1x4096x128.BroadcastsInDim S2x8x4096x128 (![0, 1, 2, 3] : Fin 4 → Fin S2x8x4096x128.rank)
  slices_S2x8x4096x128_S2x8x4096x64_0_0_0_0 : S2x8x4096x128.Slices ![0, 0, 0, 0] S2x8x4096x64
  slices_S2x8x4096x128_S2x8x4096x64_0_0_0_64 : S2x8x4096x128.Slices ![0, 0, 0, 64] S2x8x4096x64
  concatenates_S2x8x4096x64_S2x8x4096x64_S2x8x4096x128_d3 : Shape.Concatenates [S2x8x4096x64, S2x8x4096x64] S2x8x4096x128 3
  dot_S2x4096x4096_S4096x4096_S2x4096x4096_2_1_01_0_n_n_wf : DotDims.WF S2x4096x4096 S4096x4096 S2x4096x4096 [2] [1] [0, 1] [0] [] []
  dot_S2x4096x4096_S1024x4096_S2x4096x1024_2_1_01_0_n_n_wf : DotDims.WF S2x4096x4096 S1024x4096 S2x4096x1024 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf
def dot_S2x4096x4096_S1024x4096_S2x4096x1024_2_1_01_0_n_n : DotDims S2x4096x4096 S1024x4096 S2x4096x1024 where
  lhsContracting := [2]
  rhsContracting := [1]
  lhsNonContracting := [0, 1]
  rhsNonContracting := [0]
  lhsBatch := []
  rhsBatch := []
  wf := dot_S2x4096x4096_S1024x4096_S2x4096x1024_2_1_01_0_n_n_wf

class Facts : Prop extends Facts₀ where

variable [Facts]
-- ==== Proof.Spec.lean ====
/-
  What the three results are, as functions of the six argument arrays, element by element on the extended reals.

  A projection: for batch `b`, position `s`, head `hd` and feature `d`, the inner product over the 4096 hidden
  coordinates of the hidden state at `(b, s)` with row `hd * 128 + d` of the weight matrix (`x @ Wᵀ`, the heads cut out
  of the weight's rows 128 at a time).

  The rotary embedding of one head's 128 features `p`: `p d * cos + rot p d * sin`, where `rot p d` is `-(p (d + 64))` on
  the lower half of the features and `p (d - 64)` on the upper half (the two halves swapped, the one that moves down
  negated); `cos` and `sin` are read at `(b, s, d)`, the same for every head.

  Queries (32 heads) and keys (8 heads) are the rotary embedding of their projections; values (8 heads) are the bare
  projection. Every result is laid out `[batch, head, position, feature]`.
-/
import Idealize.ShloMosaic.PureOps.Ideal
import Idealize.ShloMosaic.Lib.ValueIdx

noncomputable section

open scoped BigOperators

namespace Cert.RopeSpec

open Idealize.ShloMosaic Idealize.ShloMosaic.ValueIdx

/-- Row `hd * 128 + d` of a weight matrix of `N = nh * 128` rows: feature `d` of head `hd`. -/
def headRow (nh N : Nat) (hN : N = nh * 128) (hd : Fin nh) (d : Fin 128) : Fin N :=
  ⟨hd.val * 128 + d.val, by have := hd.isLt; have := d.isLt; omega⟩

theorem headRow_val (nh N : Nat) (hN : N = nh * 128) (hd : Fin nh) (d : Fin 128) :
    (headRow nh N hN hd d).val = hd.val * 128 + d.val := rfl

/-- Feature `d` of head `hd` of the projection of the hidden state at `(b, s)`. -/
def headProj (nh N : Nat) (hN : N = nh * 128)
    (h : (⟨3, ![2, 4096, 4096]⟩ : Shape).Idx → EReal) (w : (⟨2, ![N, 4096]⟩ : Shape).Idx → EReal)
    (b : Fin 2) (s : Fin 4096) (hd : Fin nh) (d : Fin 128) : EReal :=
  ∑ k : Fin 4096, h (ix3 b s k) * w (ix2 (headRow nh N hN hd d) k)

/-- The rotated partner of feature `d`: minus the feature 64 further on in the lower half, the feature 64 back in the upper half. -/
def rot (p : Fin 128 → EReal) (d : Fin 128) : EReal :=
  if h : d.val < 64 then -(p ⟨d.val + 64, by omega⟩) else p ⟨d.val - 64, by have := d.isLt; omega⟩

/-- The rotary embedding of feature `d` of one head's features `p`, at cosine `c` and sine `s`. -/
def rope (p : Fin 128 → EReal) (c s : EReal) (d : Fin 128) : EReal := p d * c + rot p d * s

/-- A rotary-embedded projection at batch `b`, head `hd`, position `s`, feature `d`. -/
def ropeAt (nh N : Nat) (hN : N = nh * 128)
    (h : (⟨3, ![2, 4096, 4096]⟩ : Shape).Idx → EReal) (cos sin : (⟨3, ![2, 4096, 128]⟩ : Shape).Idx → EReal)
    (w : (⟨2, ![N, 4096]⟩ : Shape).Idx → EReal) (b : Fin 2) (hd : Fin nh) (s : Fin 4096) (d : Fin 128) : EReal :=
  rope (fun d' => headProj nh N hN h w b s hd d') (cos (ix3 b s d)) (sin (ix3 b s d)) d

/-- The queries: 32 heads, rotary-embedded. -/
def qOut (h : (⟨3, ![2, 4096, 4096]⟩ : Shape).Idx → EReal) (cos sin : (⟨3, ![2, 4096, 128]⟩ : Shape).Idx → EReal)
    (wq : (⟨2, ![4096, 4096]⟩ : Shape).Idx → EReal) : (⟨4, ![2, 32, 4096, 128]⟩ : Shape).Idx → EReal :=
  fun i => ropeAt 32 4096 rfl h cos sin wq (i 0) (i 1) (i 2) (i 3)

/-- The keys: 8 heads, rotary-embedded. -/
def kOut (h : (⟨3, ![2, 4096, 4096]⟩ : Shape).Idx → EReal) (cos sin : (⟨3, ![2, 4096, 128]⟩ : Shape).Idx → EReal)
    (wk : (⟨2, ![1024, 4096]⟩ : Shape).Idx → EReal) : (⟨4, ![2, 8, 4096, 128]⟩ : Shape).Idx → EReal :=
  fun i => ropeAt 8 1024 rfl h cos sin wk (i 0) (i 1) (i 2) (i 3)

/-- The values: 8 heads, the bare projection. -/
def vOut (h : (⟨3, ![2, 4096, 4096]⟩ : Shape).Idx → EReal)
    (wv : (⟨2, ![1024, 4096]⟩ : Shape).Idx → EReal) : (⟨4, ![2, 8, 4096, 128]⟩ : Shape).Idx → EReal :=
  fun i => headProj 8 1024 rfl h wv (i 0) (i 2) (i 1) (i 3)

theorem qOut_ix (h cos sin wq) (b : Fin 2) (hd : Fin 32) (s : Fin 4096) (d : Fin 128) :
    qOut h cos sin wq (ix4 b hd s d) = ropeAt 32 4096 rfl h cos sin wq b hd s d := rfl

theorem kOut_ix (h cos sin wk) (b : Fin 2) (hd : Fin 8) (s : Fin 4096) (d : Fin 128) :
    kOut h cos sin wk (ix4 b hd s d) = ropeAt 8 1024 rfl h cos sin wk b hd s d := rfl

theorem vOut_ix (h wv) (b : Fin 2) (hd : Fin 8) (s : Fin 4096) (d : Fin 128) :
    vOut h wv (ix4 b hd s d) = headProj 8 1024 rfl h wv b s hd d := rfl

/-- On the extended reals `0 - x` is `-x`, at the infinities too. -/
theorem zero_sub_ereal (x : EReal) : (0 : EReal) - x = -x := zero_sub x

/-- The rotated partner written with `0 - ·` in place of the negation. -/
theorem rot_eq_ite (p : Fin 128 → EReal) (d : Fin 128) :
    rot p d = if h : d.val < 64 then (0 : EReal) - p ⟨d.val + 64, by omega⟩ else p ⟨d.val - 64, by have := d.isLt; omega⟩ := by
  unfold rot
  split
  · rw [zero_sub_ereal]
  · rfl

end Cert.RopeSpec

end
-- ==== Proof.SpecKV.lean ====
/-
  The key and value results written over the fused weight array. The second launch reads ONE weight array of shape
  `[8, 256, 4096]`: for head `hd`, rows `0 … 127` are that head's key rows and rows `128 … 255` its value rows. Over
  such an array `kvw` the keys are the rotary embedding of the inner products with rows `d' < 128` of head `hd`, the
  values the inner products with rows `128 + d`. When row `d` of head `hd` is row `hd * 128 + d` of the key matrix and
  row `128 + d` is row `hd * 128 + d` of the value matrix, these are the specification's `kOut` and `vOut`.
-/
import proofs.«111256_j42640435315444_2_alg».proof.Proof.Spec

noncomputable section

open scoped BigOperators

namespace Cert.RopeSpec

open Idealize.ShloMosaic Idealize.ShloMosaic.ValueIdx

/-- Row `d` of a head's 256 fused rows: a key row. -/
def keyRow (d : Fin 128) : Fin 256 := ⟨d.val, by have := d.isLt; omega⟩
/-- Row `128 + d` of a head's 256 fused rows: a value row. -/
def valRow (d : Fin 128) : Fin 256 := ⟨128 + d.val, by have := d.isLt; omega⟩

/-- A key over the fused weight array, at batch `b`, head `hd`, position `s`, feature `d`. -/
def kFusedAt (h : (⟨3, ![2, 4096, 4096]⟩ : Shape).Idx → EReal) (cos sin : (⟨3, ![2, 4096, 128]⟩ : Shape).Idx → EReal)
    (kvw : (⟨3, ![8, 256, 4096]⟩ : Shape).Idx → EReal) (b : Fin 2) (hd : Fin 8) (s : Fin 4096) (d : Fin 128) : EReal :=
  rope (fun d' => ∑ k : Fin 4096, h (ix3 b s k) * kvw (ix3 hd (keyRow d') k)) (cos (ix3 b s d)) (sin (ix3 b s d)) d

/-- A value over the fused weight array. -/
def vFusedAt (h : (⟨3, ![2, 4096, 4096]⟩ : Shape).Idx → EReal)
    (kvw : (⟨3, ![8, 256, 4096]⟩ : Shape).Idx → EReal) (b : Fin 2) (hd : Fin 8) (s : Fin 4096) (d : Fin 128) : EReal :=
  ∑ k : Fin 4096, h (ix3 b s k) * kvw (ix3 hd (valRow d) k)

def kFused (h : (⟨3, ![2, 4096, 4096]⟩ : Shape).Idx → EReal) (cos sin : (⟨3, ![2, 4096, 128]⟩ : Shape).Idx → EReal)
    (kvw : (⟨3, ![8, 256, 4096]⟩ : Shape).Idx → EReal) : (⟨4, ![2, 8, 4096, 128]⟩ : Shape).Idx → EReal :=
  fun i => kFusedAt h cos sin kvw (i 0) (i 1) (i 2) (i 3)

def vFused (h : (⟨3, ![2, 4096, 4096]⟩ : Shape).Idx → EReal)
    (kvw : (⟨3, ![8, 256, 4096]⟩ : Shape).Idx → EReal) : (⟨4, ![2, 8, 4096, 128]⟩ : Shape).Idx → EReal :=
  fun i => vFusedAt h kvw (i 0) (i 1) (i 2) (i 3)

theorem kFused_ix (h cos sin kvw) (b : Fin 2) (hd : Fin 8) (s : Fin 4096) (d : Fin 128) :
    kFused h cos sin kvw (ix4 b hd s d) = kFusedAt h cos sin kvw b hd s d := rfl

theorem vFused_ix (h kvw) (b : Fin 2) (hd : Fin 8) (s : Fin 4096) (d : Fin 128) :
    vFused h kvw (ix4 b hd s d) = vFusedAt h kvw b hd s d := rfl

/-- Over a fused array whose key rows are the key matrix's, the fused keys are the specification's keys. -/
theorem kFused_eq (h : (⟨3, ![2, 4096, 4096]⟩ : Shape).Idx → EReal) (cos sin : (⟨3, ![2, 4096, 128]⟩ : Shape).Idx → EReal)
    (kvw : (⟨3, ![8, 256, 4096]⟩ : Shape).Idx → EReal) (wk : (⟨2, ![1024, 4096]⟩ : Shape).Idx → EReal)
    (hk : ∀ (hd : Fin 8) (d : Fin 128) (k : Fin 4096), kvw (ix3 hd (keyRow d) k) = wk (ix2 (headRow 8 1024 rfl hd d) k)) :
    kFused h cos sin kvw = kOut h cos sin wk := by
  funext i
  obtain ⟨b, hd, s, d, rfl⟩ : ∃ (b : Fin 2) (hd : Fin 8) (s : Fin 4096) (d : Fin 128), i = ix4 b hd s d :=
    ⟨i 0, i 1, i 2, i 3, eq_ix4 i⟩
  rw [kFused_ix, kOut_ix]
  unfold kFusedAt ropeAt headProj
  refine congrArg (fun f : Fin 128 → EReal => rope f _ _ d) (funext fun d' => ?_)
  exact Finset.sum_congr rfl fun k _ => by rw [hk hd d' k]

/-- Over a fused array whose value rows are the value matrix's, the fused values are the specification's values. -/
theorem vFused_eq (h : (⟨3, ![2, 4096, 4096]⟩ : Shape).Idx → EReal)
    (kvw : (⟨3, ![8, 256, 4096]⟩ : Shape).Idx → EReal) (wv : (⟨2, ![1024, 4096]⟩ : Shape).Idx → EReal)
    (hv : ∀ (hd : Fin 8) (d : Fin 128) (k : Fin 4096), kvw (ix3 hd (valRow d) k) = wv (ix2 (headRow 8 1024 rfl hd d) k)) :
    vFused h kvw = vOut h wv := by
  funext i
  obtain ⟨b, hd, s, d, rfl⟩ : ∃ (b : Fin 2) (hd : Fin 8) (s : Fin 4096) (d : Fin 128), i = ix4 b hd s d :=
    ⟨i 0, i 1, i 2, i 3, eq_ix4 i⟩
  rw [vFused_ix, vOut_ix]
  unfold vFusedAt headProj
  exact Finset.sum_congr rfl fun k _ => by rw [hv hd d k]

end Cert.RopeSpec

end
-- ==== Proof.RefIsSpec.lean ====
/-
  The reference program computes the three results the specification names.

  A projection stage: the product of the hidden states with a weight matrix's transpose, cut into heads of 128 features
  and laid out [batch, head, position, feature], read at (b, hd, s, d), is the inner product over the 4096 hidden
  coordinates of the hidden state at (b, s) with row hd * 128 + d of the weight: the reshape's flat position
  ((b * 4096 + s) * nh + hd) * 128 + d splits back into b, s and the row hd * 128 + d.

  The rotary stage: the joined array [-upper half, lower half] read at feature d is minus the projection at d + 64 for
  d < 64 and the projection at d - 64 otherwise; the cosine and sine tables are read at (b, s, d) for every head.
-/
import proofs.«111256_j42640435315444_2_alg».proof.Proof.Gen.ReferenceIdeal.Read
import proofs.«111256_j42640435315444_2_alg».proof.Proof.Spec
import Idealize.ShloMosaic.Lib.Pipeline.Value
import Idealize.ShloMosaic.Lib.ValueIdx
import Idealize.ShloMosaic.PureOps.Ideal

noncomputable section

open scoped BigOperators

namespace Cert.RefIsSpec

open Cert.ReferenceIdeal Cert.ReferenceIdeal.Read Idealize.ShloMosaic Idealize.ShloMosaic.ValueIdx Cert.RopeSpec

/-- The 8-head projection stage at (b, hd, s, d) is the specification's projection. -/
theorem proj8 (x0 : (⟨S2x4096x4096, .f32⟩ : BufTy).Contents (Elt Ideal)) (w : (⟨S1024x4096, .f32⟩ : BufTy).Contents (Elt Ideal))
    (b : Fin 2) (hd : Fin 8) (s : Fin 4096) (d : Fin 128) :
    Read.val_main_v5 (F := Ideal) x0 w (ix4 b hd s d) = headProj 8 1024 rfl x0 w b s hd d := by
  rw [Read.val_main_v5_apply, Read.val_main_v4_apply, Read.val_main_v3_apply]
  unfold headProj
  refine Finset.sum_congr rfl fun k _ => ?_
  have hb := b.isLt; have hh := hd.isLt; have hs := s.isLt; have hdd := d.isLt
  have e1 : Read.lidx_main_v3 (Read.idx_main_v4 (Read.idx_main_v5 (ix4 b hd s d))) k = ix3 b s k :=
    funext fun a => Fin.ext (by
      match a with
      | ⟨0, _⟩ => show (((b.val * 4096 + s.val) * 8 + hd.val) * 128 + d.val) / 4194304 = b.val; omega
      | ⟨1, _⟩ => show (((b.val * 4096 + s.val) * 8 + hd.val) * 128 + d.val) / 1024 % 4096 = s.val; omega
      | ⟨2, _⟩ => rfl)
  have e2 : Read.ridx_main_v3 (Read.idx_main_v4 (Read.idx_main_v5 (ix4 b hd s d))) k = ix2 (headRow 8 1024 rfl hd d) k :=
    funext fun a => Fin.ext (by
      match a with
      | ⟨0, _⟩ => show (((b.val * 4096 + s.val) * 8 + hd.val) * 128 + d.val) % 1024 = hd.val * 128 + d.val; omega
      | ⟨1, _⟩ => rfl)
  rw [e1, e2]

/-- The values: the bare 8-head projection. -/
theorem ref_v (x0 : (⟨S2x4096x4096, .f32⟩ : BufTy).Contents (Elt Ideal)) (x5 : (⟨S1024x4096, .f32⟩ : BufTy).Contents (Elt Ideal)) :
    Read.val_main_v8 (F := Ideal) x0 x5 = Cert.RopeSpec.vOut x0 x5 := by
  funext i
  obtain ⟨b, hd, s, d, rfl⟩ : ∃ (b : Fin 2) (hd : Fin 8) (s : Fin 4096) (d : Fin 128), i = ix4 b hd s d :=
    ⟨i 0, i 1, i 2, i 3, eq_ix4 i⟩
  rw [vOut_ix]
  exact proj8 x0 x5 b hd s d

/-- The cosine table, spread over one head axis and then over 8 heads, reads the table at (b, s, d). -/
theorem cos8 (x1 : (⟨S2x4096x128, .f32⟩ : BufTy).Contents (Elt Ideal)) (b : Fin 2) (hd : Fin 8) (s : Fin 4096) (d : Fin 128) :
    Read.val_main_v20 (F := Ideal) x1 (ix4 b hd s d) = x1 (ix3 b s d) := by
  rw [Read.val_main_v20_apply, Read.val_main_v9_apply]
  congr 1
  exact funext fun a => Fin.ext (by match a with | ⟨0, _⟩ => rfl | ⟨1, _⟩ => rfl | ⟨2, _⟩ => rfl)

/-- The sine table likewise. -/
theorem sin8 (x2 : (⟨S2x4096x128, .f32⟩ : BufTy).Contents (Elt Ideal)) (b : Fin 2) (hd : Fin 8) (s : Fin 4096) (d : Fin 128) :
    Read.val_main_v26 (F := Ideal) x2 (ix4 b hd s d) = x2 (ix3 b s d) := by
  rw [Read.val_main_v26_apply, Read.val_main_v10_apply]
  congr 1
  exact funext fun a => Fin.ext (by match a with | ⟨0, _⟩ => rfl | ⟨1, _⟩ => rfl | ⟨2, _⟩ => rfl)

/-- The joined array at a feature of the lower half: minus the projection 64 features further on. -/
theorem rot8_lo (x0 : (⟨S2x4096x4096, .f32⟩ : BufTy).Contents (Elt Ideal)) (w : (⟨S1024x4096, .f32⟩ : BufTy).Contents (Elt Ideal))
    (b : Fin 2) (hd : Fin 8) (s : Fin 4096) (d : Fin 128) (h : d.val < 64) :
    Read.val_main_v25 (F := Ideal) x0 w (ix4 b hd s d)
      = -(Read.val_main_v5 (F := Ideal) x0 w (ix4 b hd s (⟨d.val + 64, by omega⟩ : Fin 128))) := by
  unfold Read.val_main_v25
  refine (concatenate_pair_apply_left (t := S2x8x4096x128) (s₁ := S2x8x4096x64) (s₂ := S2x8x4096x64) (3 : Fin 4) _ _ _ (ix4 b hd s d) rfl (ix4 b hd s (⟨d.val, h⟩ : Fin 64))
    (fun c => by match c with | ⟨0, _⟩ => rfl | ⟨1, _⟩ => rfl | ⟨2, _⟩ => rfl | ⟨3, _⟩ => rfl)).trans ?_
  rw [Read.val_main_v24_apply, Read.val_main_v23_apply]
  show -(_) = -(_)
  congr 2
  exact funext fun a => Fin.ext (by
    match a with
    | ⟨0, _⟩ => rfl
    | ⟨1, _⟩ => rfl
    | ⟨2, _⟩ => rfl
    | ⟨3, _⟩ => show 64 + d.val = d.val + 64; omega)

/-- The joined array at a feature of the upper half: the projection 64 features back. -/
theorem rot8_hi (x0 : (⟨S2x4096x4096, .f32⟩ : BufTy).Contents (Elt Ideal)) (w : (⟨S1024x4096, .f32⟩ : BufTy).Contents (Elt Ideal))
    (b : Fin 2) (hd : Fin 8) (s : Fin 4096) (d : Fin 128) (h : ¬ d.val < 64) :
    Read.val_main_v25 (F := Ideal) x0 w (ix4 b hd s d)
      = Read.val_main_v5 (F := Ideal) x0 w (ix4 b hd s (⟨d.val - 64, by have := d.isLt; omega⟩ : Fin 128)) := by
  unfold Read.val_main_v25
  refine (concatenate_pair_apply_right (t := S2x8x4096x128) (s₁ := S2x8x4096x64) (s₂ := S2x8x4096x64) (3 : Fin 4) _ _ _ (ix4 b hd s d) rfl rfl
    (ix4 b hd s (⟨d.val - 64, by have := d.isLt; omega⟩ : Fin 64))
    (fun c hc => by
      match c with
      | ⟨0, _⟩ => rfl
      | ⟨1, _⟩ => rfl
      | ⟨2, _⟩ => rfl
      | ⟨3, _⟩ => exact absurd rfl hc)
    (by show (d.val - 64) + 64 = d.val; omega)).trans ?_
  rw [Read.val_main_v22_apply]
  congr 1
  exact funext fun a => Fin.ext (by match a with | ⟨0, _⟩ => rfl | ⟨1, _⟩ => rfl | ⟨2, _⟩ => rfl | ⟨3, _⟩ => rfl)

/-- The keys: the rotary embedding of the 8-head projection. -/
theorem ref_k (x0 : (⟨S2x4096x4096, .f32⟩ : BufTy).Contents (Elt Ideal)) (x1 x2 : (⟨S2x4096x128, .f32⟩ : BufTy).Contents (Elt Ideal))
    (x4 : (⟨S1024x4096, .f32⟩ : BufTy).Contents (Elt Ideal)) :
    Read.val_main_v28 (F := Ideal) x0 x1 x2 x4 = Cert.RopeSpec.kOut x0 x1 x2 x4 := by
  funext i
  obtain ⟨b, hd, s, d, rfl⟩ : ∃ (b : Fin 2) (hd : Fin 8) (s : Fin 4096) (d : Fin 128), i = ix4 b hd s d :=
    ⟨i 0, i 1, i 2, i 3, eq_ix4 i⟩
  rw [kOut_ix, Read.val_main_v28_apply, Read.val_main_v21_apply, Read.val_main_v27_apply, cos8, sin8, proj8]
  unfold ropeAt rope
  show _ * _ + _ * _ = _ * _ + _ * _
  congr 2
  by_cases h : d.val < 64
  · rw [rot8_lo x0 x4 b hd s d h, proj8]
    unfold rot
    rw [dif_pos h]
  · rw [rot8_hi x0 x4 b hd s d h, proj8]
    unfold rot
    rw [dif_neg h]

/-- The 32-head projection stage at (b, hd, s, d) is the specification's projection. -/
theorem proj32 (x0 : (⟨S2x4096x4096, .f32⟩ : BufTy).Contents (Elt Ideal)) (w : (⟨S4096x4096, .f32⟩ : BufTy).Contents (Elt Ideal))
    (b : Fin 2) (hd : Fin 32) (s : Fin 4096) (d : Fin 128) :
    Read.val_main_v2 (F := Ideal) x0 w (ix4 b hd s d) = headProj 32 4096 rfl x0 w b s hd d := by
  rw [Read.val_main_v2_apply, Read.val_main_v1_apply, Read.val_main_v0_apply]
  unfold headProj
  refine Finset.sum_congr rfl fun k _ => ?_
  have hb := b.isLt; have hh := hd.isLt; have hs := s.isLt; have hdd := d.isLt
  have e1 : Read.lidx_main_v0 (Read.idx_main_v1 (Read.idx_main_v2 (ix4 b hd s d))) k = ix3 b s k :=
    funext fun a => Fin.ext (by
      match a with
      | ⟨0, _⟩ => show (((b.val * 4096 + s.val) * 32 + hd.val) * 128 + d.val) / 16777216 = b.val; omega
      | ⟨1, _⟩ => show (((b.val * 4096 + s.val) * 32 + hd.val) * 128 + d.val) / 4096 % 4096 = s.val; omega
      | ⟨2, _⟩ => rfl)
  have e2 : Read.ridx_main_v0 (Read.idx_main_v1 (Read.idx_main_v2 (ix4 b hd s d))) k = ix2 (headRow 32 4096 rfl hd d) k :=
    funext fun a => Fin.ext (by
      match a with
      | ⟨0, _⟩ => show (((b.val * 4096 + s.val) * 32 + hd.val) * 128 + d.val) % 4096 = hd.val * 128 + d.val; omega
      | ⟨1, _⟩ => rfl)
  rw [e1, e2]

/-- The cosine table, spread over one head axis and then over 32 heads, reads the table at (b, s, d). -/
theorem cos32 (x1 : (⟨S2x4096x128, .f32⟩ : BufTy).Contents (Elt Ideal)) (b : Fin 2) (hd : Fin 32) (s : Fin 4096) (d : Fin 128) :
    Read.val_main_v11 (F := Ideal) x1 (ix4 b hd s d) = x1 (ix3 b s d) := by
  rw [Read.val_main_v11_apply, Read.val_main_v9_apply]
  congr 1
  exact funext fun a => Fin.ext (by match a with | ⟨0, _⟩ => rfl | ⟨1, _⟩ => rfl | ⟨2, _⟩ => rfl)

/-- The sine table likewise. -/
theorem sin32 (x2 : (⟨S2x4096x128, .f32⟩ : BufTy).Contents (Elt Ideal)) (b : Fin 2) (hd : Fin 32) (s : Fin 4096) (d : Fin 128) :
    Read.val_main_v17 (F := Ideal) x2 (ix4 b hd s d) = x2 (ix3 b s d) := by
  rw [Read.val_main_v17_apply, Read.val_main_v10_apply]
  congr 1
  exact funext fun a => Fin.ext (by match a with | ⟨0, _⟩ => rfl | ⟨1, _⟩ => rfl | ⟨2, _⟩ => rfl)

/-- The joined array at a feature of the lower half: minus the projection 64 features further on. -/
theorem rot32_lo (x0 : (⟨S2x4096x4096, .f32⟩ : BufTy).Contents (Elt Ideal)) (w : (⟨S4096x4096, .f32⟩ : BufTy).Contents (Elt Ideal))
    (b : Fin 2) (hd : Fin 32) (s : Fin 4096) (d : Fin 128) (h : d.val < 64) :
    Read.val_main_v16 (F := Ideal) x0 w (ix4 b hd s d)
      = -(Read.val_main_v2 (F := Ideal) x0 w (ix4 b hd s (⟨d.val + 64, by omega⟩ : Fin 128))) := by
  unfold Read.val_main_v16
  refine (concatenate_pair_apply_left (t := S2x32x4096x128) (s₁ := S2x32x4096x64) (s₂ := S2x32x4096x64) (3 : Fin 4) _ _ _ (ix4 b hd s d) rfl (ix4 b hd s (⟨d.val, h⟩ : Fin 64))
    (fun c => by match c with | ⟨0, _⟩ => rfl | ⟨1, _⟩ => rfl | ⟨2, _⟩ => rfl | ⟨3, _⟩ => rfl)).trans ?_
  rw [Read.val_main_v15_apply, Read.val_main_v14_apply]
  show -(_) = -(_)
  congr 2
  exact funext fun a => Fin.ext (by
    match a with
    | ⟨0, _⟩ => rfl
    | ⟨1, _⟩ => rfl
    | ⟨2, _⟩ => rfl
    | ⟨3, _⟩ => show 64 + d.val = d.val + 64; omega)

/-- The joined array at a feature of the upper half: the projection 64 features back. -/
theorem rot32_hi (x0 : (⟨S2x4096x4096, .f32⟩ : BufTy).Contents (Elt Ideal)) (w : (⟨S4096x4096, .f32⟩ : BufTy).Contents (Elt Ideal))
    (b : Fin 2) (hd : Fin 32) (s : Fin 4096) (d : Fin 128) (h : ¬ d.val < 64) :
    Read.val_main_v16 (F := Ideal) x0 w (ix4 b hd s d)
      = Read.val_main_v2 (F := Ideal) x0 w (ix4 b hd s (⟨d.val - 64, by have := d.isLt; omega⟩ : Fin 128)) := by
  unfold Read.val_main_v16
  refine (concatenate_pair_apply_right (t := S2x32x4096x128) (s₁ := S2x32x4096x64) (s₂ := S2x32x4096x64) (3 : Fin 4) _ _ _ (ix4 b hd s d) rfl rfl
    (ix4 b hd s (⟨d.val - 64, by have := d.isLt; omega⟩ : Fin 64))
    (fun c hc => by
      match c with
      | ⟨0, _⟩ => rfl
      | ⟨1, _⟩ => rfl
      | ⟨2, _⟩ => rfl
      | ⟨3, _⟩ => exact absurd rfl hc)
    (by show (d.val - 64) + 64 = d.val; omega)).trans ?_
  rw [Read.val_main_v13_apply]
  congr 1
  exact funext fun a => Fin.ext (by match a with | ⟨0, _⟩ => rfl | ⟨1, _⟩ => rfl | ⟨2, _⟩ => rfl | ⟨3, _⟩ => rfl)

/-- The queries: the rotary embedding of the 32-head projection. -/
theorem ref_q (x0 : (⟨S2x4096x4096, .f32⟩ : BufTy).Contents (Elt Ideal)) (x1 x2 : (⟨S2x4096x128, .f32⟩ : BufTy).Contents (Elt Ideal))
    (x3 : (⟨S4096x4096, .f32⟩ : BufTy).Contents (Elt Ideal)) :
    Read.val_main_v19 (F := Ideal) x0 x1 x2 x3 = Cert.RopeSpec.qOut x0 x1 x2 x3 := by
  funext i
  obtain ⟨b, hd, s, d, rfl⟩ : ∃ (b : Fin 2) (hd : Fin 32) (s : Fin 4096) (d : Fin 128), i = ix4 b hd s d :=
    ⟨i 0, i 1, i 2, i 3, eq_ix4 i⟩
  rw [qOut_ix, Read.val_main_v19_apply, Read.val_main_v12_apply, Read.val_main_v18_apply, cos32, sin32, proj32]
  unfold ropeAt rope
  show _ * _ + _ * _ = _ * _ + _ * _
  congr 2
  by_cases h : d.val < 64
  · rw [rot32_lo x0 x3 b hd s d h, proj32]
    unfold rot
    rw [dif_pos h]
  · rw [rot32_hi x0 x3 b hd s d h, proj32]
    unfold rot
    rw [dif_neg h]

end Cert.RefIsSpec

end
-- ==== Proof.KernelRun.lean ====
/-
  The idealized kernel's run with its results named. Every weakly fair execution of the program — the host
  operations that prepare the operands, then the query launch, then the fused key/value launch — terminates, and in the
  final memory each result buffer holds what the program's last segment boundary holds there, the six argument arrays
  being as launched. The contents at that boundary are the fold of the program's segments over the launch memory: the
  host operations' results, then each launch's output arrays at what its grid points wrote back. The later modules read
  that fold at the three result buffers.
-/
import proofs.«111256_j42640435315444_2_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the three results at the last boundary's contents, the arguments as launched. -/
theorem run_outputs : θ_run defs (onTc (τ := τ) (main (F := F))) ⟨m, fun _ => 0, ρ⟩ (fun r => ∀ c : Dev nD,
      r.2.mem ((c.tc : Thread nD τ).loc main_v6) = W3 m ρ c (Proc.devRef .tc main_v6)
      ∧ r.2.mem ((c.tc : Thread nD τ).loc main_v7_0) = W3 m ρ c (Proc.devRef .tc main_v7_0)
      ∧ r.2.mem ((c.tc : Thread nD τ).loc main_v7_1) = W3 m ρ c (Proc.devRef .tc main_v7_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v6 (by decide)),
       h c _ (mem_uc main_v7_0 (by decide)),
       h c _ (mem_uc main_v7_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

/-- The query result's buffer is written by the first launch only, as its output window's array. -/
theorem W3_main_v6 (c : Dev nD) :
    W3 m ρ c (Proc.devRef .tc main_v6) = (dat0 (V1 m ρ) c).arrAt 4 cfg0.N :=
  (W3_of_ne m ρ c main_v6 (by decide)).trans (W2_arr m ρ c 4)

/-- The key result's buffer is the second launch's first output window's array. -/
theorem W3_main_v7_0 (c : Dev nD) :
    W3 m ρ c (Proc.devRef .tc main_v7_0) = (dat1 (V2 m ρ) c).arrAt 4 cfg1.N :=
  W3_arr m ρ c 4

/-- The value result's buffer is the second launch's second output window's array. -/
theorem W3_main_v7_1 (c : Dev nD) :
    W3 m ρ c (Proc.devRef .tc main_v7_1) = (dat1 (V2 m ρ) c).arrAt 5 cfg1.N :=
  W3_arr m ρ c 5

end Cert.KernelIdeal.RunOut

end
-- ==== Proof.HostSide.lean ====
/-
  What the two kernel launches find in the buffers the host operations before them write.

  Six host operations run first: two changes of float format (the hidden states and the query weight), two reshapes of
  the key and the value weight from [1024, 4096] to [8, 128, 4096] (8 heads of 128 rows), their joining along the row
  axis into [8, 256, 4096] (per head: the 128 key rows, then the 128 value rows), and a change of float format of the
  joined array. On the extended reals a change of float format is the identity, so the first two buffers hold the
  arguments themselves, and the joined array at (hd, j, k) holds the key weight's row hd * 128 + j for j < 128 and the
  value weight's row hd * 128 + (j - 128) otherwise, at column k: the reshape's flat position (hd * 128 + d) * 4096 + k
  is the same on both sides.

  The second launch finds the hidden states' buffer, the cosine and sine tables and the joined weight as the first did:
  the first launch reads the first three and does not touch the fourth.
-/
import proofs.«111256_j42640435315444_2_alg».proof.Proof.Gen.KernelIdeal.Frame
import proofs.«111256_j42640435315444_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.RopeSpec Idealize.ShloMosaic.ValueIdx

variable (m : (ℓ : Loc nD τ sig) → Buf (Elt Ideal) ℓ) (ρ : Dev nD → PrngReg)

/-- The first launch finds the hidden states themselves in the buffer their change of format writes. -/
theorem v0_eq (c : Dev nD) :
    (V1 m ρ c main_v0 : S2x4096x4096.Idx → EReal) = (m ((c.tc : Thread nD τ).loc main_arg0) : S2x4096x4096.Idx → EReal) := by
  show StableHlo.after hostOps0 (W0 m ρ c) (Proc.devRef .tc main_v0) = _
  after_results
  rfl

/-- The first launch finds the query weight itself in the buffer its change of format writes. -/
theorem v1_eq (c : Dev nD) :
    (V1 m ρ c main_v1 : S4096x4096.Idx → EReal) = (m ((c.tc : Thread nD τ).loc main_arg3) : S4096x4096.Idx → EReal) := by
  show StableHlo.after hostOps0 (W0 m ρ c) (Proc.devRef .tc main_v1) = _
  after_results
  rfl

/-- No host operation writes the cosine table. -/
theorem arg1_eq (c : Dev nD) : V1 m ρ c main_arg1 = m ((c.tc : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg1) := rfl

/-- No host operation writes the sine table. -/
theorem arg2_eq (c : Dev nD) : V1 m ρ c main_arg2 = m ((c.tc : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg2) := rfl

/-- The second launch finds the hidden states' buffer as the first did: it is an input of the first launch. -/
theorem v2_v0 (c : Dev nD) : V2 m ρ c main_v0 = V1 m ρ c main_v0 :=
  (W2_arr m ρ c 0).trans (((dat0 (V1 m ρ) c).arrAt_in 0 rfl _).trans (A_eq0 (V1 m ρ) c 0))

/-- The cosine table likewise. -/
theorem v2_arg1 (c : Dev nD) : V2 m ρ c main_arg1 = V1 m ρ c main_arg1 :=
  (W2_arr m ρ c 2).trans (((dat0 (V1 m ρ) c).arrAt_in 2 rfl _).trans (A_eq0 (V1 m ρ) c 2))

/-- The sine table likewise. -/
theorem v2_arg2 (c : Dev nD) : V2 m ρ c main_arg2 = V1 m ρ c main_arg2 :=
  (W2_arr m ρ c 3).trans (((dat0 (V1 m ρ) c).arrAt_in 3 rfl _).trans (A_eq0 (V1 m ρ) c 3))

/-- The joined key and value weight is no array of the first launch, which leaves it as it was. -/
theorem v2_v5 (c : Dev nD) : V2 m ρ c main_v5 = V1 m ρ c main_v5 :=
  W2_of_ne m ρ c main_v5 (by decide)

/-- The reshape [1024, 4096] → [8, 128, 4096] at (hd, d, k) reads row hd * 128 + d at column k: both flat positions
    are (hd * 128 + d) * 4096 + k. -/
theorem heads_apply (x : S1024x4096.Idx → EReal) (hd : Fin 8) (d : Fin 128) (k : Fin 4096) :
    shapeCast S8x128x4096 x shapeCasts_S1024x4096_S8x128x4096 (ix3 hd d k) = x (ix2 (headRow 8 1024 rfl hd d) k) := by
  refine shapeCast_apply x shapeCasts_S1024x4096_S8x128x4096 (ix3 hd d k) (ix2 (headRow 8 1024 rfl hd d) k) ?_
  rewrite [Shape.rowMajor_val_two, Shape.rowMajor_val_three]
  show (hd.val * 128 + d.val) * 4096 + k.val = (hd.val * 128 + d.val) * 4096 + k.val
  rfl

/-- Two [8, 128, 4096] arrays joined along the row axis, read at a row below 128: the first array at that row. -/
theorem join_fst (y z : S8x128x4096.Idx → EReal) (hd : Fin 8) (d : Fin 128) (k : Fin 4096) :
    concatenate S8x256x4096 1 [⟨S8x128x4096, y⟩, ⟨S8x128x4096, z⟩] concatenates_S8x128x4096_S8x128x4096_S8x256x4096_d1
        (ix3 hd (⟨d.val, by have := d.isLt; omega⟩ : Fin 256) k)
      = y (ix3 hd d k) :=
  concatenate_pair_apply_left (t := S8x256x4096) (s₁ := S8x128x4096) (s₂ := S8x128x4096) (1 : Fin 3) y z _ _ rfl (ix3 hd d k)
    (fun a => by match a with | ⟨0, _⟩ => rfl | ⟨1, _⟩ => rfl | ⟨2, _⟩ => rfl)

/-- … read at row 128 + d: the second array at row d. -/
theorem join_snd (y z : S8x128x4096.Idx → EReal) (hd : Fin 8) (d : Fin 128) (k : Fin 4096) :
    concatenate S8x256x4096 1 [⟨S8x128x4096, y⟩, ⟨S8x128x4096, z⟩] concatenates_S8x128x4096_S8x128x4096_S8x256x4096_d1
        (ix3 hd (⟨128 + d.val, by have := d.isLt; omega⟩ : Fin 256) k)
      = z (ix3 hd d k) :=
  concatenate_pair_apply_right (t := S8x256x4096) (s₁ := S8x128x4096) (s₂ := S8x128x4096) (1 : Fin 3) y z _ _ rfl rfl (ix3 hd d k)
    (fun a ha => by
      match a with
      | ⟨0, _⟩ => rfl
      | ⟨1, _⟩ => exact absurd rfl ha
      | ⟨2, _⟩ => rfl)
    (by show d.val + 128 = 128 + d.val; omega)

/-- What the first launch finds in the joined weight's buffer: the two reshaped weights joined (the change of float
    format is the identity on the extended reals). -/
theorem v5_term (c : Dev nD) :
    (V1 m ρ c main_v5 : S8x256x4096.Idx → EReal)
      = concatenate S8x256x4096 1
          [⟨S8x128x4096, shapeCast S8x128x4096 (m ((c.tc : Thread nD τ).loc main_arg4) : S1024x4096.Idx → EReal) shapeCasts_S1024x4096_S8x128x4096⟩,
           ⟨S8x128x4096, shapeCast S8x128x4096 (m ((c.tc : Thread nD τ).loc main_arg5) : S1024x4096.Idx → EReal) shapeCasts_S1024x4096_S8x128x4096⟩]
          concatenates_S8x128x4096_S8x128x4096_S8x256x4096_d1 := by
  show StableHlo.after hostOps0 (W0 m ρ c) (Proc.devRef .tc main_v5) = _
  after_results
  rfl

/-- Row d of head hd of the joined weight is the key weight's row hd * 128 + d. -/
theorem v5_key (c : Dev nD) (hd : Fin 8) (d : Fin 128) (k : Fin 4096) :
    (V1 m ρ c main_v5 : S8x256x4096.Idx → EReal) (ix3 hd (⟨d.val, by have := d.isLt; omega⟩ : Fin 256) k)
      = (m ((c.tc : Thread nD τ).loc main_arg4) : S1024x4096.Idx → EReal) (ix2 (headRow 8 1024 rfl hd d) k) := by
  rw [v5_term m ρ c, join_fst, heads_apply]

/-- Row 128 + d of head hd of the joined weight is the value weight's row hd * 128 + d. -/
theorem v5_val (c : Dev nD) (hd : Fin 8) (d : Fin 128) (k : Fin 4096) :
    (V1 m ρ c main_v5 : S8x256x4096.Idx → EReal) (ix3 hd (⟨128 + d.val, by have := d.isLt; omega⟩ : Fin 256) k)
      = (m ((c.tc : Thread nD τ).loc main_arg5) : S1024x4096.Idx → EReal) (ix2 (headRow 8 1024 rfl hd d) k) := by
  rw [v5_term m ρ c, join_snd, heads_apply]

end Cert.KernelIdeal.HostSide

end
-- ==== Proof.Tile.lean ====
/-
  One tile of the kernel's arithmetic, read at an element.

  Both launches compute, per grid point, one matrix product of the point's block of hidden states (1024 positions by
  4096 hidden coordinates) with the point's block of weight rows, contracted over ALL 4096 hidden coordinates at once,
  so an element of the product is the full inner product of a position's hidden state with a weight row. Each head's
  128 columns of the product are then cut out; the rotary embedding of a head's tile `P` at cosine tile `c` and sine
  tile `s` is `P * c + R * s`, where `R` joins `0 - (upper half of P)` to `(lower half of P)` along the features. Read
  at position `r` and feature `d` this is the specification's `rope` of row `r` of `P`: on the extended reals
  `0 - x = -x` everywhere.
-/
import proofs.«111256_j42640435315444_2_alg».proof.Proof.Gen.KernelIdeal.Skeleton
import proofs.«111256_j42640435315444_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Cert.RopeSpec
open Idealize.ShloMosaic Idealize.ShloMosaic.ValueIdx

/-! ## Layout operations of a tile, read at (row, column) -/

/-- A block of `M` columns cut out of an array of 1024 rows at column offset `off` reads column `off + d`. -/
theorem slice_cols_apply {α : Type} {N M : Nat} (off : Nat) (v : (⟨2, ![1024, N]⟩ : Shape).Idx → α)
    (h : (⟨2, ![1024, N]⟩ : Shape).Slices ![0, off] ⟨2, ![1024, M]⟩) (r : Fin 1024) (d : Fin M) (hb : off + d.val < N) :
    extractStridedSlice (⟨2, ![1024, M]⟩ : Shape) ![0, off] v h (ix2 r d) = v (ix2 r (⟨off + d.val, hb⟩ : Fin N)) :=
  extractStridedSlice_apply ![0, off] v h (ix2 r d) (ix2 r (⟨off + d.val, hb⟩ : Fin N)) fun a =>
    match a with
    | ⟨0, _⟩ => (Nat.zero_add r.val).symm
    | ⟨1, _⟩ => rfl

/-- Two 64-column pieces joined along the columns: a column below 64 is the first piece's. -/
theorem join_cols_left {α : Type} (x₁ x₂ : (⟨2, ![1024, 64]⟩ : Shape).Idx → α)
    (h : Shape.Concatenates [(⟨2, ![1024, 64]⟩ : Shape), ⟨2, ![1024, 64]⟩] ⟨2, ![1024, 128]⟩ (1 : Fin 2))
    (r : Fin 1024) (d : Fin 128) (hd : d.val < 64) :
    concatenate (⟨2, ![1024, 128]⟩ : Shape) (1 : Fin 2) [⟨⟨2, ![1024, 64]⟩, x₁⟩, ⟨⟨2, ![1024, 64]⟩, x₂⟩] h (ix2 r d)
      = x₁ (ix2 r (⟨d.val, hd⟩ : Fin 64)) :=
  concatenate_pair_apply_left (1 : Fin 2) x₁ x₂ h (ix2 r d) rfl (ix2 r (⟨d.val, hd⟩ : Fin 64)) fun b =>
    match b with
    | ⟨0, _⟩ => rfl
    | ⟨1, _⟩ => rfl

/-- … and a column from 64 on is the second piece's, 64 columns back. -/
theorem join_cols_right {α : Type} (x₁ x₂ : (⟨2, ![1024, 64]⟩ : Shape).Idx → α)
    (h : Shape.Concatenates [(⟨2, ![1024, 64]⟩ : Shape), ⟨2, ![1024, 64]⟩] ⟨2, ![1024, 128]⟩ (1 : Fin 2))
    (r : Fin 1024) (d : Fin 128) (hd : 64 ≤ d.val) :
    concatenate (⟨2, ![1024, 128]⟩ : Shape) (1 : Fin 2) [⟨⟨2, ![1024, 64]⟩, x₁⟩, ⟨⟨2, ![1024, 64]⟩, x₂⟩] h (ix2 r d)
      = x₂ (ix2 r (⟨d.val - 64, by have := d.isLt; omega⟩ : Fin 64)) :=
  concatenate_pair_apply_right (1 : Fin 2) x₁ x₂ h (ix2 r d) rfl rfl (ix2 r (⟨d.val - 64, by have := d.isLt; omega⟩ : Fin 64))
    (fun b hb => match b, hb with
      | ⟨0, _⟩, _ => rfl
      | ⟨1, _⟩, hb => absurd rfl hb)
    (by show d.val - 64 + 64 = d.val; omega)

/-- A 1024-by-128 tile stored as a block `[1, 1, 1024, 128]` reads the tile at the last two coordinates. -/
theorem block_of_tile_apply {α : Type} (x : (⟨2, ![1024, 128]⟩ : Shape).Idx → α)
    (h : (⟨2, ![1024, 128]⟩ : Shape).ShapeCasts ⟨4, ![1, 1, 1024, 128]⟩) (u v : Fin 1) (r : Fin 1024) (d : Fin 128) :
    shapeCast (⟨4, ![1, 1, 1024, 128]⟩ : Shape) x h (ix4 u v r d) = x (ix2 r d) :=
  shapeCast_apply x h _ _ (by
    have hu : u.val = 0 := by omega
    have hv : v.val = 0 := by omega
    rw [Shape.rowMajor_val_four, Shape.rowMajor_val_two]
    show r.val * 128 + d.val = ((u.val * 1 + v.val) * 1024 + r.val) * 128 + d.val
    rw [hu, hv]; omega)

/-! ## The rotary embedding of a tile -/

/-- The rotated tile: `0 -` the upper half of the features, then the lower half. -/
def rotTile (P : FVec Ideal S1024x128 .f32) : FVec Ideal S1024x128 .f32 :=
  concatenate S1024x128 1
    [⟨S1024x64, subf (broadcast S1024x64 (Scalar.ofBits (F := Ideal) .f32 0x00000000#32))
        (extractStridedSlice S1024x64 ![0, 64] P slices_S1024x128_o0_64_S1024x64)⟩,
     ⟨S1024x64, extractStridedSlice S1024x64 ![0, 0] P slices_S1024x128_o0_0_S1024x64⟩]
    concatenates_S1024x64_S1024x64_S1024x128_d1

/-- The rotary embedding of tile `P` at cosine tile `c` and sine tile `s`, as the block a grid point stores. -/
def ropeTile (P c s : FVec Ideal S1024x128 .f32) : FVec Ideal S1x1x1024x128 .f32 :=
  shapeCast S1x1x1024x128 (addf (mulf P c) (mulf (rotTile P) s)) shapeCasts_S1024x128_S1x1x1024x128

theorem rotTile_apply (P : FVec Ideal S1024x128 .f32) (r : Fin 1024) (d : Fin 128) :
    rotTile P (ix2 r d) = rot (fun d' => P (ix2 r d')) d := by
  rw [rot_eq_ite]
  unfold rotTile
  by_cases hd : d.val < 64
  · rw [dif_pos hd]
    refine (join_cols_left _ _ concatenates_S1024x64_S1024x64_S1024x128_d1 r d hd).trans ?_
    rw [subf_apply, broadcast_apply]
    refine congrArg₂ (· - ·) ?_ ?_
    · exact Ideal.ofBits_zero_f32
    · exact slice_cols_apply 64 P slices_S1024x128_o0_64_S1024x64 r ⟨d.val, hd⟩ (by show 64 + d.val < 128; omega) |>.trans
        (congrArg P (congrArg (ix2 r) (Fin.ext (by show 64 + d.val = d.val + 64; omega))))
  · rw [dif_neg hd]
    refine (join_cols_right _ _ concatenates_S1024x64_S1024x64_S1024x128_d1 r d (by omega)).trans ?_
    exact slice_cols_apply 0 P slices_S1024x128_o0_0_S1024x64 r ⟨d.val - 64, by have := d.isLt; omega⟩ (by show 0 + (d.val - 64) < 128; have := d.isLt; omega) |>.trans
      (congrArg P (congrArg (ix2 r) (Fin.ext (by show 0 + (d.val - 64) = d.val - 64; omega))))

theorem ropeTile_apply (P c s : FVec Ideal S1024x128 .f32) (u v : Fin 1) (r : Fin 1024) (d : Fin 128) :
    ropeTile P c s (ix4 u v r d) = rope (fun d' => P (ix2 r d')) (c (ix2 r d)) (s (ix2 r d)) d := by
  unfold ropeTile rope
  refine (block_of_tile_apply _ shapeCasts_S1024x128_S1x1x1024x128 u v r d).trans ?_
  rw [addf_apply, mulf_apply, mulf_apply, rotTile_apply]

end Cert.KernelIdeal.Tile

end
-- ==== Proof.Product.lean ====
/-
  The kernel's matrix products read at an element: into a zero accumulator, with one contracted axis of 4096 hidden
  coordinates, the product of a block of hidden states (rows: positions) with a block of weight rows is, at position
  `r` and weight row `j`, the sum over the hidden coordinate `k` of `lhs (r, k) * rhs (j, k)` — the whole inner
  product, no partial sums.
-/
import proofs.«111256_j42640435315444_2_alg».proof.Proof.Gen.KernelIdeal
import Idealize.ShloMosaic.Lib.ValueIdx
import Idealize.ShloMosaic.PureOps.Ideal.Laws

noncomputable section

open scoped BigOperators

namespace Cert.KernelIdeal.Product

open Cert.KernelIdeal
open Idealize.ShloMosaic Idealize.ShloMosaic.ValueIdx

/-! ## Which operand coordinates an output element and a contraction index name -/

theorem lhs_q_0 (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
theorem lhs_q_1 (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
theorem rhs_q_0 (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
theorem rhs_q_1 (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

theorem lhs_kv_0 (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
theorem lhs_kv_1 (i : S1024x256.Idx) (q : dot_S1024x4096_S256x4096_S1024x256_1_1_0_0_n_n.contr.Idx) :
    (dot_S1024x4096_S256x4096_S1024x256_1_1_0_0_n_n.lhsIdx i q 1).val = (q ⟨0, by decide⟩).val :=
  dot_S1024x4096_S256x4096_S1024x256_1_1_0_0_n_n.lhsIdx_val_of_single rfl i q
theorem rhs_kv_0 (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
theorem rhs_kv_1 (i : S1024x256.Idx) (q : dot_S1024x4096_S256x4096_S1024x256_1_1_0_0_n_n.contr.Idx) :
    (dot_S1024x4096_S256x4096_S1024x256_1_1_0_0_n_n.rhsIdx i q 1).val = (q ⟨0, by decide⟩).val :=
  dot_S1024x4096_S256x4096_S1024x256_1_1_0_0_n_n.rhsIdx_val_of_single rfl i q

/-! ## The products as sums -/

/-- The query launch's product: 1024 positions against 512 weight rows (four heads). -/
theorem matmul_q_apply (lhs : FVec Ideal S1024x4096 .bf16) (rhs : FVec Ideal S512x4096 .bf16) (r : Fin 1024) (j : Fin 512) :
    matmul dot_S1024x4096_S512x4096_S1024x512_1_1_0_0_n_n none lhs rhs (constant S1024x512 .f32 0x00000000#32) (ix2 r j)
      = ∑ k : Fin 4096, lhs (ix2 r k) * rhs (ix2 j k) := by
  simp only [matmul]
  rw [Ideal.matmul_constant_zero_apply, ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 r j) ((contrEquiv1 dot_S1024x4096_S512x4096_S1024x512_1_1_0_0_n_n 4096 rfl rfl).symm k) = ix2 r k := funext fun a => Fin.ext (by
    match a with
    | ⟨0, _⟩ => exact lhs_q_0 _ _
    | ⟨1, _⟩ => exact (lhs_q_1 _ _).trans hk)
  have er : dot_S1024x4096_S512x4096_S1024x512_1_1_0_0_n_n.rhsIdx (ix2 r j) ((contrEquiv1 dot_S1024x4096_S512x4096_S1024x512_1_1_0_0_n_n 4096 rfl rfl).symm k) = ix2 j k := funext fun a => Fin.ext (by
    match a with
    | ⟨0, _⟩ => exact rhs_q_0 _ _
    | ⟨1, _⟩ => exact (rhs_q_1 _ _).trans hk)
  rw [el, er]

/-- The key/value launch's product: 1024 positions against 256 weight rows (one head's key rows, then its value rows). -/
theorem matmul_kv_apply (lhs : FVec Ideal S1024x4096 .bf16) (rhs : FVec Ideal S256x4096 .bf16) (r : Fin 1024) (j : Fin 256) :
    matmul dot_S1024x4096_S256x4096_S1024x256_1_1_0_0_n_n none lhs rhs (constant S1024x256 .f32 0x00000000#32) (ix2 r j)
      = ∑ k : Fin 4096, lhs (ix2 r k) * rhs (ix2 j k) := by
  simp only [matmul]
  rw [Ideal.matmul_constant_zero_apply, ← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 r j) ((contrEquiv1 dot_S1024x4096_S256x4096_S1024x256_1_1_0_0_n_n 4096 rfl rfl).symm k) = ix2 r k := funext fun a => Fin.ext (by
    match a with
    | ⟨0, _⟩ => exact lhs_kv_0 _ _
    | ⟨1, _⟩ => exact (lhs_kv_1 _ _).trans hk)
  have er : dot_S1024x4096_S256x4096_S1024x256_1_1_0_0_n_n.rhsIdx (ix2 r j) ((contrEquiv1 dot_S1024x4096_S256x4096_S1024x256_1_1_0_0_n_n 4096 rfl rfl).symm k) = ix2 j k := funext fun a => Fin.ext (by
    match a with
    | ⟨0, _⟩ => exact rhs_kv_0 _ _
    | ⟨1, _⟩ => exact (rhs_kv_1 _ _).trans hk)
  rw [el, er]

end Cert.KernelIdeal.Product

end
-- ==== Proof.BodyQ.lean ====
/-
  What one grid point of the query launch leaves in its output block. The block is `[1, 4, 1024, 128]`: four heads,
  1024 positions, 128 features. The body forms the product of the point's 1024 hidden states with the point's 512 weight
  rows (four heads of 128 rows) and stores, for head `g` of the four, the rotary embedding of columns `g * 128 …
  g * 128 + 127` of the product at the point's cosine and sine blocks, into row `g` of the block's second axis. The four
  stores tile the block, so the block read at `(u, g, r, d)` is `blockQ … g r d`: the rotary embedding, at feature `d`,
  of the 128 inner products of hidden state `r` with weight rows `g * 128 + d'`.
-/
import proofs.«111256_j42640435315444_2_alg».proof.Proof.Gen.KernelIdeal.Frame
import proofs.«111256_j42640435315444_2_alg».proof.Proof.Tile
import proofs.«111256_j42640435315444_2_alg».proof.Proof.Product
import Idealize.ShloMosaic.Lib.ValueLayout

set_option maxRecDepth 16384

noncomputable section

open scoped BigOperators

namespace Cert.KernelIdeal.BodyQ

open Cert.KernelIdeal Cert.KernelIdeal.Gen Cert.RopeSpec Cert.KernelIdeal.Tile Cert.KernelIdeal.Product
open Idealize.ShloMosaic Idealize.ShloMosaic.ValueIdx

/-- Head `g` of a grid point's output, at position `r` and feature `d`, from the point's four input blocks. -/
def blockQ (x0 : FVec Ideal S1x1024x4096 .bf16) (x1 : FVec Ideal S512x4096 .bf16) (x2 x3 : FVec Ideal S1x1024x128 .f32)
    (g : Fin 4) (r : Fin 1024) (d : Fin 128) : EReal :=
  rope (fun d' => ∑ k : Fin 4096, x0 (ix3 (0 : Fin 1) r k) * x1 (ix2 (headRow 4 512 rfl g d') k))
    (x2 (ix3 (0 : Fin 1) r d)) (x3 (ix3 (0 : Fin 1) r d)) d

/-- The point's product at position `r` and weight row `j`: the whole inner product over the hidden coordinates. -/
theorem prodQ_apply (x0 : FVec Ideal S1x1024x4096 .bf16) (x1 : FVec Ideal S512x4096 .bf16) (r : Fin 1024) (j : Fin 512) :
    k0_pay3 (F := Ideal) x0 x1 (ix2 r j) = ∑ k : Fin 4096, x0 (ix3 (0 : Fin 1) r k) * x1 (ix2 j k) := by
  refine (matmul_q_apply (shapeCast S1024x4096 x0 shapeCasts_S1x1024x4096_S1024x4096)
    (shapeCast S512x4096 x1 shapeCasts_S512x4096_S512x4096) r j).trans ?_
  refine Finset.sum_congr rfl fun k _ => ?_
  rw [shapeCast_1ab_ab_apply x0 shapeCasts_S1x1024x4096_S1024x4096 r k, shapeCast_self]

/-- The cosine tile is the cosine block without its unit axis. -/
theorem cosTile_apply (x2 : FVec Ideal S1x1024x128 .f32) (r : Fin 1024) (d : Fin 128) :
    k0_pay4 (F := Ideal) x2 (ix2 r d) = x2 (ix3 (0 : Fin 1) r d) :=
  shapeCast_1ab_ab_apply x2 shapeCasts_S1x1024x128_S1024x128 r d

/-- The sine tile likewise. -/
theorem sinTile_apply (x3 : FVec Ideal S1x1024x128 .f32) (r : Fin 1024) (d : Fin 128) :
    k0_pay5 (F := Ideal) x3 (ix2 r d) = x3 (ix3 (0 : Fin 1) r d) :=
  shapeCast_1ab_ab_apply x3 shapeCasts_S1x1024x128_S1024x128 r d

/-- The rotary embedding of the 128 columns of the product from column `off = g * 128` on is head `g`'s output. -/
theorem headTile_apply (x0 : FVec Ideal S1x1024x4096 .bf16) (x1 : FVec Ideal S512x4096 .bf16) (x2 x3 : FVec Ideal S1x1024x128 .f32)
    (off : Nat) (hs : S1024x512.Slices ![0, off] S1024x128) (g : Fin 4) (hoff : off = g.val * 128)
    (u v : Fin 1) (r : Fin 1024) (d : Fin 128) :
    ropeTile (extractStridedSlice S1024x128 ![0, off] (k0_pay3 (F := Ideal) x0 x1) hs) (k0_pay4 (F := Ideal) x2) (k0_pay5 (F := Ideal) x3) (ix4 u v r d)
      = blockQ x0 x1 x2 x3 g r d := by
  rw [ropeTile_apply, cosTile_apply, sinTile_apply]
  unfold blockQ
  have hf : (fun d' : Fin 128 => extractStridedSlice S1024x128 ![0, off] (k0_pay3 (F := Ideal) x0 x1) hs (ix2 r d'))
      = fun d' : Fin 128 => ∑ k : Fin 4096, x0 (ix3 (0 : Fin 1) r k) * x1 (ix2 (headRow 4 512 rfl g d') k) := by
    funext d'
    have hb : off + d'.val < 512 := by have := g.isLt; have := d'.isLt; omega
    refine (slice_cols_apply off (k0_pay3 (F := Ideal) x0 x1) hs r d' hb).trans ?_
    refine (prodQ_apply x0 x1 r ⟨off + d'.val, hb⟩).trans ?_
    refine Finset.sum_congr rfl fun k _ => ?_
    refine congrArg (fun j : Fin 512 => x0 (ix3 (0 : Fin 1) r k) * x1 (ix2 j k)) (Fin.ext ?_)
    show off + d'.val = g.val * 128 + d'.val
    omega
  rw [hf]

theorem hz3 : (![0, 0, 0] : Fin 3 → Nat) = fun _ => 0 := funext fun a => by fin_cases a <;> rfl
theorem hz2 : (![0, 0] : Fin 2 → Nat) = fun _ => 0 := funext fun a => by fin_cases a <;> rfl

/-- The output block after the body, read at an index: the four stores are the four heads of one function of the index. -/
theorem outQ_apply (x0 : FVec Ideal S1x1024x4096 .bf16) (x1 : FVec Ideal S512x4096 .bf16) (x2 x3 : FVec Ideal S1x1024x128 .f32)
    (y : S1x4x1024x128.Idx) :
    out0_4 (F := Ideal) x0 x1 x2 x3 y = blockQ x0 x1 x2 x3 (y 1) (y 2) (y 3) := by
  unfold out0_4
  simp only [View.ld_unit_zero (S := S1x1024x4096) hz3, View.ld_unit_zero (S := S512x4096) hz2, View.ld_unit_zero (S := S1x1024x128) hz3]
  refine View.canon_apply_of_pieces (Val := Elt Ideal) (S := S1x4x1024x128) (e := .f32)
    (fun y : S1x4x1024x128.Idx => blockQ x0 x1 x2 x3 (y 1) (y 2) (y 3)) _ ?_ y (cover0_4 _ _ _ _ y)
  intro p hp x
  simp only [List.mem_cons, List.mem_nil_iff, or_false] at hp
  rcases hp with rfl | rfl | rfl | rfl
  · -- the store of head 3: rows of the buffer's second axis at 3
    obtain ⟨u, v, r, d, rfl⟩ : ∃ (u v : Fin 1) (r : Fin 1024) (d : Fin 128), x = ix4 u v r d := ⟨x 0, x 1, x 2, x 3, eq_ix4 x⟩
    have hv : v.val = 0 := by omega
    have e1 : (r0_6.emb (ix4 u v r d)) 1 = (3 : Fin 4) := Fin.ext (by show 3 + 1 * v.val = 3; omega)
    have e2 : (r0_6.emb (ix4 u v r d)) 2 = r := Fin.ext (by show 0 + 1 * r.val = r.val; omega)
    have e3 : (r0_6.emb (ix4 u v r d)) 3 = d := Fin.ext (by show 0 + 1 * d.val = d.val; omega)
    show _ = blockQ x0 x1 x2 x3 ((r0_6.emb (ix4 u v r d)) 1) ((r0_6.emb (ix4 u v r d)) 2) ((r0_6.emb (ix4 u v r d)) 3)
    rw [e1, e2, e3]
    exact headTile_apply x0 x1 x2 x3 384 slices_S1024x512_o0_384_S1024x128 (3 : Fin 4) rfl u v r d
  · -- the store of head 2: rows of the buffer's second axis at 2
    obtain ⟨u, v, r, d, rfl⟩ : ∃ (u v : Fin 1) (r : Fin 1024) (d : Fin 128), x = ix4 u v r d := ⟨x 0, x 1, x 2, x 3, eq_ix4 x⟩
    have hv : v.val = 0 := by omega
    have e1 : (r0_5.emb (ix4 u v r d)) 1 = (2 : Fin 4) := Fin.ext (by show 2 + 1 * v.val = 2; omega)
    have e2 : (r0_5.emb (ix4 u v r d)) 2 = r := Fin.ext (by show 0 + 1 * r.val = r.val; omega)
    have e3 : (r0_5.emb (ix4 u v r d)) 3 = d := Fin.ext (by show 0 + 1 * d.val = d.val; omega)
    show _ = blockQ x0 x1 x2 x3 ((r0_5.emb (ix4 u v r d)) 1) ((r0_5.emb (ix4 u v r d)) 2) ((r0_5.emb (ix4 u v r d)) 3)
    rw [e1, e2, e3]
    exact headTile_apply x0 x1 x2 x3 256 slices_S1024x512_o0_256_S1024x128 (2 : Fin 4) rfl u v r d
  · -- the store of head 1: rows of the buffer's second axis at 1
    obtain ⟨u, v, r, d, rfl⟩ : ∃ (u v : Fin 1) (r : Fin 1024) (d : Fin 128), x = ix4 u v r d := ⟨x 0, x 1, x 2, x 3, eq_ix4 x⟩
    have hv : v.val = 0 := by omega
    have e1 : (r0_4.emb (ix4 u v r d)) 1 = (1 : Fin 4) := Fin.ext (by show 1 + 1 * v.val = 1; omega)
    have e2 : (r0_4.emb (ix4 u v r d)) 2 = r := Fin.ext (by show 0 + 1 * r.val = r.val; omega)
    have e3 : (r0_4.emb (ix4 u v r d)) 3 = d := Fin.ext (by show 0 + 1 * d.val = d.val; omega)
    show _ = blockQ x0 x1 x2 x3 ((r0_4.emb (ix4 u v r d)) 1) ((r0_4.emb (ix4 u v r d)) 2) ((r0_4.emb (ix4 u v r d)) 3)
    rw [e1, e2, e3]
    exact headTile_apply x0 x1 x2 x3 128 slices_S1024x512_o0_128_S1024x128 (1 : Fin 4) rfl u v r d
  · -- the store of head 0: rows of the buffer's second axis at 0
    obtain ⟨u, v, r, d, rfl⟩ : ∃ (u v : Fin 1) (r : Fin 1024) (d : Fin 128), x = ix4 u v r d := ⟨x 0, x 1, x 2, x 3, eq_ix4 x⟩
    have hv : v.val = 0 := by omega
    have e1 : (r0_3.emb (ix4 u v r d)) 1 = (0 : Fin 4) := Fin.ext (by show 0 + 1 * v.val = 0; omega)
    have e2 : (r0_3.emb (ix4 u v r d)) 2 = r := Fin.ext (by show 0 + 1 * r.val = r.val; omega)
    have e3 : (r0_3.emb (ix4 u v r d)) 3 = d := Fin.ext (by show 0 + 1 * d.val = d.val; omega)
    show _ = blockQ x0 x1 x2 x3 ((r0_3.emb (ix4 u v r d)) 1) ((r0_3.emb (ix4 u v r d)) 2) ((r0_3.emb (ix4 u v r d)) 3)
    rw [e1, e2, e3]
    exact headTile_apply x0 x1 x2 x3 0 slices_S1024x512_o0_0_S1024x128 (0 : Fin 4) rfl u v r d

end Cert.KernelIdeal.BodyQ

end
-- ==== Proof.WindowQ.lean ====
/-
  The query result as one array. The query launch runs over a grid of 2 batches by 4 position tiles by 8 head groups.
  At point `(b, s, h)` it reads hidden-state block `(b, s)` (1024 positions), weight block `h` (512 rows: heads
  `4h … 4h + 3`), cosine and sine blocks `(b, s)`, and writes output block `(b, h, s)` of shape `[1, 4, 1024, 128]`.
  An element `(u, g, r, d)` of that block sits in the result at batch `b`, head `4h + g`, position `1024 s + r`,
  feature `d`; the body's value there (`blockQ`) is the rotary embedding of the inner products of hidden state
  `(b, 1024 s + r)` with weight rows `512 h + 128 g + d' = 128 (4h + g) + d'` — the specification's `qOut` at that
  element. The 64 output blocks tile the result, so after the launch the result array IS `qOut` of the arrays the launch
  read.
-/
import proofs.«111256_j42640435315444_2_alg».proof.Proof.Gen.KernelIdeal.Frame
import proofs.«111256_j42640435315444_2_alg».proof.Proof.BodyQ
import proofs.«111256_j42640435315444_2_alg».proof.Proof.Spec
import Idealize.ShloMosaic.Lib.Pipeline.Value

set_option maxRecDepth 16384

noncomputable section

open scoped BigOperators

namespace Cert.KernelIdeal.WindowQ

open Cert.KernelIdeal Cert.KernelIdeal.Gen Cert.RopeSpec Cert.KernelIdeal.BodyQ
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The launch's index maps over its 64 grid points: every input block moves with the output block's batch, head-group and
    position-tile indices, and those stay in their ranges. -/
theorem idx_facts : ∀ t : Fin cfg0.N,
    win0_0.index t (0 : Fin 3) = win0_4.index t (0 : Fin 4) ∧ win0_0.index t (1 : Fin 3) = win0_4.index t (2 : Fin 4) ∧ win0_0.index t (2 : Fin 3) = 0
    ∧ win0_1.index t (0 : Fin 2) = win0_4.index t (1 : Fin 4) ∧ win0_1.index t (1 : Fin 2) = 0
    ∧ win0_2.index t (0 : Fin 3) = win0_4.index t (0 : Fin 4) ∧ win0_2.index t (1 : Fin 3) = win0_4.index t (2 : Fin 4) ∧ win0_2.index t (2 : Fin 3) = 0
    ∧ win0_3.index t (0 : Fin 3) = win0_4.index t (0 : Fin 4) ∧ win0_3.index t (1 : Fin 3) = win0_4.index t (2 : Fin 4) ∧ win0_3.index t (2 : Fin 3) = 0
    ∧ win0_4.index t (0 : Fin 4) ≤ 1 ∧ win0_4.index t (1 : Fin 4) ≤ 7 ∧ win0_4.index t (2 : Fin 4) ≤ 3 ∧ win0_4.index t (3 : Fin 4) = 0 :=
  (by decide +kernel : ∀ t : Fin grid0.N, _)

/-- Every (batch, head group, position tile) is some grid point's output block. -/
theorem idx_onto : ∀ (q0 : Fin 2) (q1 : Fin 8) (q2 : Fin 4), ∃ t : Fin cfg0.N, win0_4.index t = ![q0.val, q1.val, q2.val, 0] :=
  (by decide +kernel : ∀ (q0 : Fin 2) (q1 : Fin 8) (q2 : Fin 4), ∃ t : Fin grid0.N, win0_4.index t = ![q0.val, q1.val, q2.val, 0])

/-! ## The input blocks read where the output block's element sits -/

/-- The hidden-state block of a point: position `r` of the block is position `1024 * tile + r` of batch `b`. -/
theorem read_hidden (c : Dev nD) (t : Fin cfg0.N) (u : Fin 1) (r : Fin 1024) (k : Fin 4096) (b : Fin 2) (s : Fin 4096)
    (hb : b.val = win0_0.index t (0 : Fin 3)) (hs : s.val = win0_0.index t (1 : Fin 3) * 1024 + r.val) (h2 : win0_0.index t (2 : Fin 3) = 0) :
    iblk0 V c 0 t (ix3 u r k) = V c main_v0 (ix3 b s k) := by
  show V c main_v0 (((cfg0.win 0).blk t).view.emb (ix3 u r k)) = V c main_v0 (ix3 b s k)
  refine congrArg (V c main_v0) (funext fun a => Fin.ext ?_)
  have hu : u.val = 0 := by omega
  match a with
  | ⟨0, _⟩ => show win0_0.index t (0 : Fin 3) * 1 + 1 * u.val = b.val; omega
  | ⟨1, _⟩ => show win0_0.index t (1 : Fin 3) * 1024 + 1 * r.val = s.val; omega
  | ⟨2, _⟩ => show win0_0.index t (2 : Fin 3) * 4096 + 1 * k.val = k.val; omega

/-- The weight block of a point: row `j` of the block is row `512 * group + j` of the weight matrix. -/
theorem read_weight (c : Dev nD) (t : Fin cfg0.N) (j : Fin 512) (k : Fin 4096) (n : Fin 4096)
    (hn : n.val = win0_1.index t (0 : Fin 2) * 512 + j.val) (h1 : win0_1.index t (1 : Fin 2) = 0) :
    iblk0 V c 1 t (ix2 j k) = V c main_v1 (ix2 n k) := by
  show V c main_v1 (((cfg0.win 1).blk t).view.emb (ix2 j k)) = V c main_v1 (ix2 n k)
  refine congrArg (V c main_v1) (funext fun a => Fin.ext ?_)
  match a with
  | ⟨0, _⟩ => show win0_1.index t (0 : Fin 2) * 512 + 1 * j.val = n.val; omega
  | ⟨1, _⟩ => show win0_1.index t (1 : Fin 2) * 4096 + 1 * k.val = k.val; omega

/-- The cosine block of a point. -/
theorem read_cos (c : Dev nD) (t : Fin cfg0.N) (u : Fin 1) (r : Fin 1024) (d : Fin 128) (b : Fin 2) (s : Fin 4096)
    (hb : b.val = win0_2.index t (0 : Fin 3)) (hs : s.val = win0_2.index t (1 : Fin 3) * 1024 + r.val) (h2 : win0_2.index t (2 : Fin 3) = 0) :
    iblk0 V c 2 t (ix3 u r d) = V c main_arg1 (ix3 b s d) := by
  show V c main_arg1 (((cfg0.win 2).blk t).view.emb (ix3 u r d)) = V c main_arg1 (ix3 b s d)
  refine congrArg (V c main_arg1) (funext fun a => Fin.ext ?_)
  have hu : u.val = 0 := by omega
  match a with
  | ⟨0, _⟩ => show win0_2.index t (0 : Fin 3) * 1 + 1 * u.val = b.val; omega
  | ⟨1, _⟩ => show win0_2.index t (1 : Fin 3) * 1024 + 1 * r.val = s.val; omega
  | ⟨2, _⟩ => show win0_2.index t (2 : Fin 3) * 128 + 1 * d.val = d.val; omega

/-- The sine block of a point. -/
theorem read_sin (c : Dev nD) (t : Fin cfg0.N) (u : Fin 1) (r : Fin 1024) (d : Fin 128) (b : Fin 2) (s : Fin 4096)
    (hb : b.val = win0_3.index t (0 : Fin 3)) (hs : s.val = win0_3.index t (1 : Fin 3) * 1024 + r.val) (h2 : win0_3.index t (2 : Fin 3) = 0) :
    iblk0 V c 3 t (ix3 u r d) = V c main_arg2 (ix3 b s d) := by
  show V c main_arg2 (((cfg0.win 3).blk t).view.emb (ix3 u r d)) = V c main_arg2 (ix3 b s d)
  refine congrArg (V c main_arg2) (funext fun a => Fin.ext ?_)
  have hu : u.val = 0 := by omega
  match a with
  | ⟨0, _⟩ => show win0_3.index t (0 : Fin 3) * 1 + 1 * u.val = b.val; omega
  | ⟨1, _⟩ => show win0_3.index t (1 : Fin 3) * 1024 + 1 * r.val = s.val; omega
  | ⟨2, _⟩ => show win0_3.index t (2 : Fin 3) * 128 + 1 * d.val = d.val; omega

/-! ## What a point writes back, the cover, the array -/

/-- WHAT POINT `t` WRITES BACK is block `t` of `qOut` of the arrays the launch reads. -/
theorem flushed_eq (c : Dev nD) (t : Fin cfg0.N) :
    (dat0 V c).flushed 4 t
      = ((cfg0.win 4).blk t).view.read (Elt Ideal) (qOut (V c main_v0) (V c main_arg1) (V c main_arg2) (V c main_v1)) := by
  show (cfg0.win 4).cut (grid0.coords t) ((dat0 V c).after 4 t) = _
  rw [after0_4]
  obtain ⟨a0, a1, a2, b0, b1, c0, c1, c2, d0, d1, d2, l0, l1, l2, l3⟩ := idx_facts t
  funext y
  obtain ⟨u, g, r, d, rfl⟩ : ∃ (u : Fin 1) (g : Fin 4) (r : Fin 1024) (d : Fin 128), y = ix4 u g r d :=
    ⟨y 0, y 1, y 2, y 3, eq_ix4 y⟩
  have hu : u.val = 0 := by omega
  have hg : g.val < 4 := g.isLt
  have hr : r.val < 1024 := r.isLt
  have hd : d.val < 128 := d.isLt
  obtain ⟨bb, hbb⟩ : ∃ bb : Fin 2, bb.val = win0_4.index t (0 : Fin 4) := ⟨⟨win0_4.index t (0 : Fin 4), by omega⟩, rfl⟩
  obtain ⟨hh, hhh⟩ : ∃ hh : Fin 32, hh.val = win0_4.index t (1 : Fin 4) * 4 + g.val := ⟨⟨win0_4.index t (1 : Fin 4) * 4 + g.val, by omega⟩, rfl⟩
  obtain ⟨ss, hss⟩ : ∃ ss : Fin 4096, ss.val = win0_4.index t (2 : Fin 4) * 1024 + r.val := ⟨⟨win0_4.index t (2 : Fin 4) * 1024 + r.val, by omega⟩, rfl⟩
  have hE : ((cfg0.win 4).blk t).view.emb (ix4 u g r d) = ix4 bb hh ss d := by
    funext a; apply Fin.ext
    match a with
    | ⟨0, _⟩ => show win0_4.index t (0 : Fin 4) * 1 + 1 * u.val = bb.val; omega
    | ⟨1, _⟩ => show win0_4.index t (1 : Fin 4) * 4 + 1 * g.val = hh.val; omega
    | ⟨2, _⟩ => show win0_4.index t (2 : Fin 4) * 1024 + 1 * r.val = ss.val; omega
    | ⟨3, _⟩ => show win0_4.index t (3 : Fin 4) * 128 + 1 * d.val = d.val; omega
  show out0_4 (iblk0 V c 0 t) (iblk0 V c 1 t) (iblk0 V c 2 t) (iblk0 V c 3 t) (ix4 u g r d)
      = qOut (V c main_v0) (V c main_arg1) (V c main_arg2) (V c main_v1) (((cfg0.win 4).blk t).view.emb (ix4 u g r d))
  rw [hE, qOut_ix]
  refine (outQ_apply (iblk0 V c 0 t) (iblk0 V c 1 t) (iblk0 V c 2 t) (iblk0 V c 3 t) (ix4 u g r d)).trans ?_
  show blockQ (iblk0 V c 0 t) (iblk0 V c 1 t) (iblk0 V c 2 t) (iblk0 V c 3 t) g r d = _
  unfold blockQ ropeAt
  rw [read_cos V c t 0 r d bb ss (by omega) (by omega) c2, read_sin V c t 0 r d bb ss (by omega) (by omega) d2]
  refine congrArg (fun f : Fin 128 → EReal => rope f _ _ d) (funext fun d' => ?_)
  unfold headProj
  refine Finset.sum_congr rfl fun k _ => ?_
  rw [read_hidden V c t 0 r k bb ss (by omega) (by omega) a2,
    read_weight V c t (headRow 4 512 rfl g d') k (headRow 32 4096 rfl hh d')
      (by have := d'.isLt; show hh.val * 128 + d'.val = win0_1.index t (0 : Fin 2) * 512 + (g.val * 128 + d'.val); omega) b1]

/-- An index of the result is in point `t`'s block iff each coordinate is in the block's range on its axis. -/
theorem mem_blk (t : Fin cfg0.N) (i : S2x32x4096x128.Idx) :
    i ∈ ((cfg0.win 4).blk t).view.set ↔ ∀ a : Fin 4, win0_4.index t a * S1x4x1024x128.size a ≤ (i a).val ∧ (i a).val < win0_4.index t a * S1x4x1024x128.size a + S1x4x1024x128.size a := by
  show i ∈ ((View.whole main_v6).slice (win0_4.rect t)).set ↔ _
  rw [View.set_slice_whole, Rect.mem_set_unit]
  exact Iff.rfl

/-- Every element of the result is in some grid point's output block: the point of its batch, its head's group of
    four and its position's tile of 1024. -/
theorem cover (i : S2x32x4096x128.Idx) :
    ∃ t : Fin cfg0.N, (cfg0.win 4).flush t = true ∧ i ∈ ((cfg0.win 4).blk t).view.set := by
  have h0 : (i 0).val < 2 := (i 0).isLt
  have h1 : (i 1).val < 32 := (i 1).isLt
  have h2 : (i 2).val < 4096 := (i 2).isLt
  have h3 : (i 3).val < 128 := (i 3).isLt
  obtain ⟨t, ht⟩ := idx_onto ⟨(i 0).val, h0⟩ ⟨(i 1).val / 4, by omega⟩ ⟨(i 2).val / 1024, by omega⟩
  have q0 : win0_4.index t (0 : Fin 4) = (i 0).val := congrFun ht 0
  have q1 : win0_4.index t (1 : Fin 4) = (i 1).val / 4 := congrFun ht 1
  have q2 : win0_4.index t (2 : Fin 4) = (i 2).val / 1024 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 4 ≤ (i 1).val ∧ (i 1).val < win0_4.index t (1 : Fin 4) * 4 + 4; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 128 ≤ (i 3).val ∧ (i 3).val < win0_4.index t (3 : Fin 4) * 128 + 128; omega

/-- THE QUERY ARRAY after the launch: `qOut` of the arrays the launch read. -/
theorem final (c : Dev nD) :
    (dat0 V c).arrAt 4 cfg0.N = qOut (V c main_v0) (V c main_arg1) (V c main_arg2) (V c main_v1) :=
  (dat0 V c).arrAt_eq_of_cover 4 _ (fun t _ => flushed_eq V c t) cover

end Cert.KernelIdeal.WindowQ

end
-- ==== Proof.BodyKV.lean ====
/-
  What one grid point of the key/value launch leaves in its two output blocks (each `[1, 1, 1024, 128]`: one head, 1024
  positions, 128 features). The body forms the product of the point's 1024 hidden states with the head's 256 fused weight
  rows; the key block is the rotary embedding of columns `0 … 127` of the product at the point's cosine and sine blocks,
  the value block is columns `128 … 255` as they are.
-/
import proofs.«111256_j42640435315444_2_alg».proof.Proof.Gen.KernelIdeal.Frame
import proofs.«111256_j42640435315444_2_alg».proof.Proof.Tile
import proofs.«111256_j42640435315444_2_alg».proof.Proof.Product
import proofs.«111256_j42640435315444_2_alg».proof.Proof.SpecKV
import Idealize.ShloMosaic.Lib.ValueLayout

set_option maxRecDepth 16384

noncomputable section

open scoped BigOperators

namespace Cert.KernelIdeal.BodyKV

open Cert.KernelIdeal Cert.KernelIdeal.Gen Cert.RopeSpec Cert.KernelIdeal.Tile Cert.KernelIdeal.Product
open Idealize.ShloMosaic Idealize.ShloMosaic.ValueIdx

/-- The key block at position `r` and feature `d`, from the point's four input blocks. -/
def blockK (x0 : FVec Ideal S1x1024x4096 .bf16) (x1 : FVec Ideal S1x256x4096 .bf16) (x2 x3 : FVec Ideal S1x1024x128 .f32)
    (r : Fin 1024) (d : Fin 128) : EReal :=
  rope (fun d' => ∑ k : Fin 4096, x0 (ix3 (0 : Fin 1) r k) * x1 (ix3 (0 : Fin 1) (keyRow d') k))
    (x2 (ix3 (0 : Fin 1) r d)) (x3 (ix3 (0 : Fin 1) r d)) d

/-- The value block at position `r` and feature `d`. -/
def blockV (x0 : FVec Ideal S1x1024x4096 .bf16) (x1 : FVec Ideal S1x256x4096 .bf16) (r : Fin 1024) (d : Fin 128) : EReal :=
  ∑ k : Fin 4096, x0 (ix3 (0 : Fin 1) r k) * x1 (ix3 (0 : Fin 1) (valRow d) k)

/-- The point's product at position `r` and fused weight row `j`. -/
theorem prodKV_apply (x0 : FVec Ideal S1x1024x4096 .bf16) (x1 : FVec Ideal S1x256x4096 .bf16) (r : Fin 1024) (j : Fin 256) :
    k1_pay1 (F := Ideal) x0 x1 (ix2 r j) = ∑ k : Fin 4096, x0 (ix3 (0 : Fin 1) r k) * x1 (ix3 (0 : Fin 1) j k) := by
  refine (matmul_kv_apply (shapeCast S1024x4096 x0 shapeCasts_S1x1024x4096_S1024x4096)
    (shapeCast S256x4096 x1 shapeCasts_S1x256x4096_S256x4096) r j).trans ?_
  refine Finset.sum_congr rfl fun k _ => ?_
  rw [shapeCast_1ab_ab_apply x0 shapeCasts_S1x1024x4096_S1024x4096 r k,
    shapeCast_1ab_ab_apply x1 shapeCasts_S1x256x4096_S256x4096 j k]

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The key block after the body, read at an index. -/
theorem outK_apply (x0 : FVec Ideal S1x1024x4096 .bf16) (x1 : FVec Ideal S1x256x4096 .bf16) (x2 x3 : FVec Ideal S1x1024x128 .f32)
    (u v : Fin 1) (r : Fin 1024) (d : Fin 128) :
    out1_4 (F := Ideal) x0 x1 x2 x3 (ix4 u v r d) = blockK x0 x1 x2 x3 r d := by
  unfold out1_4
  rw [View.canon_unit_zero hz4]
  simp only [View.ld_unit_zero (S := S1x1024x4096) hz3, View.ld_unit_zero (S := S1x256x4096) hz3, View.ld_unit_zero (S := S1x1024x128) hz3]
  show ropeTile (extractStridedSlice S1024x128 ![0, 0] (k1_pay1 (F := Ideal) x0 x1) slices_S1024x256_o0_0_S1024x128)
      (shapeCast S1024x128 x2 shapeCasts_S1x1024x128_S1024x128) (shapeCast S1024x128 x3 shapeCasts_S1x1024x128_S1024x128) (ix4 u v r d) = _
  rw [ropeTile_apply, shapeCast_1ab_ab_apply x2 shapeCasts_S1x1024x128_S1024x128 r d,
    shapeCast_1ab_ab_apply x3 shapeCasts_S1x1024x128_S1024x128 r d]
  unfold blockK
  refine congrArg (fun f : Fin 128 → EReal => rope f _ _ d) (funext fun d' => ?_)
  have hb : 0 + d'.val < 256 := by have := d'.isLt; omega
  refine (slice_cols_apply 0 (k1_pay1 (F := Ideal) x0 x1) slices_S1024x256_o0_0_S1024x128 r d' hb).trans ?_
  refine (prodKV_apply x0 x1 r ⟨0 + d'.val, hb⟩).trans ?_
  refine Finset.sum_congr rfl fun k _ => ?_
  refine congrArg (fun j : Fin 256 => x0 (ix3 (0 : Fin 1) r k) * x1 (ix3 (0 : Fin 1) j k)) (Fin.ext ?_)
  show 0 + d'.val = d'.val
  omega

/-- The value block after the body, read at an index. -/
theorem outV_apply (x0 : FVec Ideal S1x1024x4096 .bf16) (x1 : FVec Ideal S1x256x4096 .bf16) (x2 x3 : FVec Ideal S1x1024x128 .f32)
    (u v : Fin 1) (r : Fin 1024) (d : Fin 128) :
    out1_5 (F := Ideal) x0 x1 x2 x3 (ix4 u v r d) = blockV x0 x1 r d := by
  unfold out1_5
  rw [View.canon_unit_zero hz4]
  simp only [View.ld_unit_zero (S := S1x1024x4096) hz3, View.ld_unit_zero (S := S1x256x4096) hz3]
  show shapeCast S1x1x1024x128 (extractStridedSlice S1024x128 ![0, 128] (k1_pay1 (F := Ideal) x0 x1) slices_S1024x256_o0_128_S1024x128)
      shapeCasts_S1024x128_S1x1x1024x128 (ix4 u v r d) = _
  refine (block_of_tile_apply _ shapeCasts_S1024x128_S1x1x1024x128 u v r d).trans ?_
  have hb : 128 + d.val < 256 := by have := d.isLt; omega
  refine (slice_cols_apply 128 (k1_pay1 (F := Ideal) x0 x1) slices_S1024x256_o0_128_S1024x128 r d hb).trans ?_
  exact prodKV_apply x0 x1 r ⟨128 + d.val, hb⟩

end Cert.KernelIdeal.BodyKV

end
-- ==== Proof.WindowKV.lean ====
/-
  The key and value results as arrays. The second launch runs over the same grid of 2 batches by 4 position tiles by 8
  heads. At point `(b, s, h)` it reads hidden-state block `(b, s)`, the fused weight block of head `h` (256 rows),
  cosine and sine blocks `(b, s)`, and writes block `(b, h, s)` of each of its two outputs. An element `(u, v, r, d)` of an
  output block sits at batch `b`, head `h`, position `1024 s + r`, feature `d`; the body's values there are the fused
  key and the fused value of the arrays the launch read. The 64 blocks of each output tile it.
-/
import proofs.«111256_j42640435315444_2_alg».proof.Proof.Gen.KernelIdeal.Frame
import proofs.«111256_j42640435315444_2_alg».proof.Proof.BodyKV
import proofs.«111256_j42640435315444_2_alg».proof.Proof.SpecKV
import Idealize.ShloMosaic.Lib.Pipeline.Value

set_option maxRecDepth 16384

noncomputable section

open scoped BigOperators

namespace Cert.KernelIdeal.WindowKV

open Cert.KernelIdeal Cert.KernelIdeal.Gen Cert.RopeSpec Cert.KernelIdeal.BodyKV
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The launch's index maps over its 64 grid points: every input block moves with the key block's batch, head and
    position-tile indices, the value block sits where the key block does, and the indices stay in their ranges. -/
theorem idx_facts : ∀ t : Fin cfg1.N,
    win1_0.index t (0 : Fin 3) = win1_4.index t (0 : Fin 4) ∧ win1_0.index t (1 : Fin 3) = win1_4.index t (2 : Fin 4) ∧ win1_0.index t (2 : Fin 3) = 0
    ∧ win1_1.index t (0 : Fin 3) = win1_4.index t (1 : Fin 4) ∧ win1_1.index t (1 : Fin 3) = 0 ∧ win1_1.index t (2 : Fin 3) = 0
    ∧ win1_2.index t (0 : Fin 3) = win1_4.index t (0 : Fin 4) ∧ win1_2.index t (1 : Fin 3) = win1_4.index t (2 : Fin 4) ∧ win1_2.index t (2 : Fin 3) = 0
    ∧ win1_3.index t (0 : Fin 3) = win1_4.index t (0 : Fin 4) ∧ win1_3.index t (1 : Fin 3) = win1_4.index t (2 : Fin 4) ∧ win1_3.index t (2 : Fin 3) = 0
    ∧ win1_5.index t (0 : Fin 4) = win1_4.index t (0 : Fin 4) ∧ win1_5.index t (1 : Fin 4) = win1_4.index t (1 : Fin 4)
    ∧ win1_5.index t (2 : Fin 4) = win1_4.index t (2 : Fin 4) ∧ win1_5.index t (3 : Fin 4) = win1_4.index t (3 : Fin 4)
    ∧ win1_4.index t (0 : Fin 4) ≤ 1 ∧ win1_4.index t (1 : Fin 4) ≤ 7 ∧ win1_4.index t (2 : Fin 4) ≤ 3 ∧ win1_4.index t (3 : Fin 4) = 0 :=
  (by decide +kernel : ∀ t : Fin grid1.N, _)

/-- Every (batch, head, position tile) is some grid point's key block, and its value block. -/
theorem idx_onto : ∀ (q0 : Fin 2) (q1 : Fin 8) (q2 : Fin 4), ∃ t : Fin cfg1.N,
    win1_4.index t = ![q0.val, q1.val, q2.val, 0] ∧ win1_5.index t = ![q0.val, q1.val, q2.val, 0] :=
  (by decide +kernel : ∀ (q0 : Fin 2) (q1 : Fin 8) (q2 : Fin 4), ∃ t : Fin grid1.N,
    win1_4.index t = ![q0.val, q1.val, q2.val, 0] ∧ win1_5.index t = ![q0.val, q1.val, q2.val, 0])

/-! ## The input blocks read where the output block's element sits -/

theorem read_hidden (c : Dev nD) (t : Fin cfg1.N) (u : Fin 1) (r : Fin 1024) (k : Fin 4096) (b : Fin 2) (s : Fin 4096)
    (hb : b.val = win1_0.index t (0 : Fin 3)) (hs : s.val = win1_0.index t (1 : Fin 3) * 1024 + r.val) (h2 : win1_0.index t (2 : Fin 3) = 0) :
    iblk1 V c 0 t (ix3 u r k) = V c main_v0 (ix3 b s k) := by
  show V c main_v0 (((cfg1.win 0).blk t).view.emb (ix3 u r k)) = V c main_v0 (ix3 b s k)
  refine congrArg (V c main_v0) (funext fun a => Fin.ext ?_)
  have hu : u.val = 0 := by omega
  match a with
  | ⟨0, _⟩ => show win1_0.index t (0 : Fin 3) * 1 + 1 * u.val = b.val; omega
  | ⟨1, _⟩ => show win1_0.index t (1 : Fin 3) * 1024 + 1 * r.val = s.val; omega
  | ⟨2, _⟩ => show win1_0.index t (2 : Fin 3) * 4096 + 1 * k.val = k.val; omega

/-- The fused weight block of a point: the 256 rows of head `hd`. -/
theorem read_fused (c : Dev nD) (t : Fin cfg1.N) (u : Fin 1) (j : Fin 256) (k : Fin 4096) (hd : Fin 8)
    (hh : hd.val = win1_1.index t (0 : Fin 3)) (h1 : win1_1.index t (1 : Fin 3) = 0) (h2 : win1_1.index t (2 : Fin 3) = 0) :
    iblk1 V c 1 t (ix3 u j k) = V c main_v5 (ix3 hd j k) := by
  show V c main_v5 (((cfg1.win 1).blk t).view.emb (ix3 u j k)) = V c main_v5 (ix3 hd j k)
  refine congrArg (V c main_v5) (funext fun a => Fin.ext ?_)
  have hu : u.val = 0 := by omega
  match a with
  | ⟨0, _⟩ => show win1_1.index t (0 : Fin 3) * 1 + 1 * u.val = hd.val; omega
  | ⟨1, _⟩ => show win1_1.index t (1 : Fin 3) * 256 + 1 * j.val = j.val; omega
  | ⟨2, _⟩ => show win1_1.index t (2 : Fin 3) * 4096 + 1 * k.val = k.val; omega

theorem read_cos (c : Dev nD) (t : Fin cfg1.N) (u : Fin 1) (r : Fin 1024) (d : Fin 128) (b : Fin 2) (s : Fin 4096)
    (hb : b.val = win1_2.index t (0 : Fin 3)) (hs : s.val = win1_2.index t (1 : Fin 3) * 1024 + r.val) (h2 : win1_2.index t (2 : Fin 3) = 0) :
    iblk1 V c 2 t (ix3 u r d) = V c main_arg1 (ix3 b s d) := by
  show V c main_arg1 (((cfg1.win 2).blk t).view.emb (ix3 u r d)) = V c main_arg1 (ix3 b s d)
  refine congrArg (V c main_arg1) (funext fun a => Fin.ext ?_)
  have hu : u.val = 0 := by omega
  match a with
  | ⟨0, _⟩ => show win1_2.index t (0 : Fin 3) * 1 + 1 * u.val = b.val; omega
  | ⟨1, _⟩ => show win1_2.index t (1 : Fin 3) * 1024 + 1 * r.val = s.val; omega
  | ⟨2, _⟩ => show win1_2.index t (2 : Fin 3) * 128 + 1 * d.val = d.val; omega

theorem read_sin (c : Dev nD) (t : Fin cfg1.N) (u : Fin 1) (r : Fin 1024) (d : Fin 128) (b : Fin 2) (s : Fin 4096)
    (hb : b.val = win1_3.index t (0 : Fin 3)) (hs : s.val = win1_3.index t (1 : Fin 3) * 1024 + r.val) (h2 : win1_3.index t (2 : Fin 3) = 0) :
    iblk1 V c 3 t (ix3 u r d) = V c main_arg2 (ix3 b s d) := by
  show V c main_arg2 (((cfg1.win 3).blk t).view.emb (ix3 u r d)) = V c main_arg2 (ix3 b s d)
  refine congrArg (V c main_arg2) (funext fun a => Fin.ext ?_)
  have hu : u.val = 0 := by omega
  match a with
  | ⟨0, _⟩ => show win1_3.index t (0 : Fin 3) * 1 + 1 * u.val = b.val; omega
  | ⟨1, _⟩ => show win1_3.index t (1 : Fin 3) * 1024 + 1 * r.val = s.val; omega
  | ⟨2, _⟩ => show win1_3.index t (2 : Fin 3) * 128 + 1 * d.val = d.val; omega

/-! ## What a point writes back -/

/-- WHAT POINT `t` WRITES BACK through the key window is block `t` of the fused keys of the arrays the launch reads. -/
theorem flushedK_eq (c : Dev nD) (t : Fin cfg1.N) :
    (dat1 V c).flushed 4 t
      = ((cfg1.win 4).blk t).view.read (Elt Ideal) (kFused (V c main_v0) (V c main_arg1) (V c main_arg2) (V c main_v5)) := by
  show (cfg1.win 4).cut (grid1.coords t) ((dat1 V c).after 4 t) = _
  rw [after1_4]
  obtain ⟨a0, a1, a2, b0, b1, b2, c0, c1, c2, d0, d1, d2, e0, e1, e2, e3, l0, l1, l2, l3⟩ := idx_facts t
  funext y
  obtain ⟨u, v, r, d, rfl⟩ : ∃ (u v : Fin 1) (r : Fin 1024) (d : Fin 128), y = ix4 u v r d :=
    ⟨y 0, y 1, y 2, y 3, eq_ix4 y⟩
  have hu : u.val = 0 := by omega
  have hv : v.val = 0 := by omega
  have hr : r.val < 1024 := r.isLt
  have hd : d.val < 128 := d.isLt
  obtain ⟨bb, hbb⟩ : ∃ bb : Fin 2, bb.val = win1_4.index t (0 : Fin 4) := ⟨⟨win1_4.index t (0 : Fin 4), by omega⟩, rfl⟩
  obtain ⟨hh, hhh⟩ : ∃ hh : Fin 8, hh.val = win1_4.index t (1 : Fin 4) := ⟨⟨win1_4.index t (1 : Fin 4), by omega⟩, rfl⟩
  obtain ⟨ss, hss⟩ : ∃ ss : Fin 4096, ss.val = win1_4.index t (2 : Fin 4) * 1024 + r.val := ⟨⟨win1_4.index t (2 : Fin 4) * 1024 + r.val, by omega⟩, rfl⟩
  have hE : ((cfg1.win 4).blk t).view.emb (ix4 u v r d) = ix4 bb hh ss d := by
    funext a; apply Fin.ext
    match a with
    | ⟨0, _⟩ => show win1_4.index t (0 : Fin 4) * 1 + 1 * u.val = bb.val; omega
    | ⟨1, _⟩ => show win1_4.index t (1 : Fin 4) * 1 + 1 * v.val = hh.val; omega
    | ⟨2, _⟩ => show win1_4.index t (2 : Fin 4) * 1024 + 1 * r.val = ss.val; omega
    | ⟨3, _⟩ => show win1_4.index t (3 : Fin 4) * 128 + 1 * d.val = d.val; omega
  show out1_4 (iblk1 V c 0 t) (iblk1 V c 1 t) (iblk1 V c 2 t) (iblk1 V c 3 t) (ix4 u v r d)
      = kFused (V c main_v0) (V c main_arg1) (V c main_arg2) (V c main_v5) (((cfg1.win 4).blk t).view.emb (ix4 u v r d))
  rw [hE, kFused_ix]
  refine (outK_apply (iblk1 V c 0 t) (iblk1 V c 1 t) (iblk1 V c 2 t) (iblk1 V c 3 t) u v r d).trans ?_
  unfold blockK kFusedAt
  rw [read_cos V c t 0 r d bb ss (by omega) (by omega) c2, read_sin V c t 0 r d bb ss (by omega) (by omega) d2]
  refine congrArg (fun f : Fin 128 → EReal => rope f _ _ d) (funext fun d' => ?_)
  refine Finset.sum_congr rfl fun k _ => ?_
  rw [read_hidden V c t 0 r k bb ss (by omega) (by omega) a2, read_fused V c t 0 (keyRow d') k hh (by omega) b1 b2]

/-- WHAT POINT `t` WRITES BACK through the value window is block `t` of the fused values. -/
theorem flushedV_eq (c : Dev nD) (t : Fin cfg1.N) :
    (dat1 V c).flushed 5 t
      = ((cfg1.win 5).blk t).view.read (Elt Ideal) (vFused (V c main_v0) (V c main_v5)) := by
  show (cfg1.win 5).cut (grid1.coords t) ((dat1 V c).after 5 t) = _
  rw [after1_5]
  obtain ⟨a0, a1, a2, b0, b1, b2, c0, c1, c2, d0, d1, d2, e0, e1, e2, e3, l0, l1, l2, l3⟩ := idx_facts t
  funext y
  obtain ⟨u, v, r, d, rfl⟩ : ∃ (u v : Fin 1) (r : Fin 1024) (d : Fin 128), y = ix4 u v r d :=
    ⟨y 0, y 1, y 2, y 3, eq_ix4 y⟩
  have hu : u.val = 0 := by omega
  have hv : v.val = 0 := by omega
  have hr : r.val < 1024 := r.isLt
  have hd : d.val < 128 := d.isLt
  obtain ⟨bb, hbb⟩ : ∃ bb : Fin 2, bb.val = win1_4.index t (0 : Fin 4) := ⟨⟨win1_4.index t (0 : Fin 4), by omega⟩, rfl⟩
  obtain ⟨hh, hhh⟩ : ∃ hh : Fin 8, hh.val = win1_4.index t (1 : Fin 4) := ⟨⟨win1_4.index t (1 : Fin 4), by omega⟩, rfl⟩
  obtain ⟨ss, hss⟩ : ∃ ss : Fin 4096, ss.val = win1_4.index t (2 : Fin 4) * 1024 + r.val := ⟨⟨win1_4.index t (2 : Fin 4) * 1024 + r.val, by omega⟩, rfl⟩
  have hE : ((cfg1.win 5).blk t).view.emb (ix4 u v r d) = ix4 bb hh ss d := by
    funext a; apply Fin.ext
    match a with
    | ⟨0, _⟩ => show win1_5.index t (0 : Fin 4) * 1 + 1 * u.val = bb.val; omega
    | ⟨1, _⟩ => show win1_5.index t (1 : Fin 4) * 1 + 1 * v.val = hh.val; omega
    | ⟨2, _⟩ => show win1_5.index t (2 : Fin 4) * 1024 + 1 * r.val = ss.val; omega
    | ⟨3, _⟩ => show win1_5.index t (3 : Fin 4) * 128 + 1 * d.val = d.val; omega
  show out1_5 (iblk1 V c 0 t) (iblk1 V c 1 t) (iblk1 V c 2 t) (iblk1 V c 3 t) (ix4 u v r d)
      = vFused (V c main_v0) (V c main_v5) (((cfg1.win 5).blk t).view.emb (ix4 u v r d))
  rw [hE, vFused_ix]
  refine (outV_apply (iblk1 V c 0 t) (iblk1 V c 1 t) (iblk1 V c 2 t) (iblk1 V c 3 t) u v r d).trans ?_
  unfold blockV vFusedAt
  refine Finset.sum_congr rfl fun k _ => ?_
  rw [read_hidden V c t 0 r k bb ss (by omega) (by omega) a2, read_fused V c t 0 (valRow d) k hh (by omega) b1 b2]

/-! ## The covers, the arrays -/

theorem mem_blkK (t : Fin cfg1.N) (i : S2x8x4096x128.Idx) :
    i ∈ ((cfg1.win 4).blk t).view.set ↔ ∀ a : Fin 4, win1_4.index t a * S1x1x1024x128.size a ≤ (i a).val ∧ (i a).val < win1_4.index t a * S1x1x1024x128.size a + S1x1x1024x128.size a := by
  show i ∈ ((View.whole main_v7_0).slice (win1_4.rect t)).set ↔ _
  rw [View.set_slice_whole, Rect.mem_set_unit]
  exact Iff.rfl

theorem mem_blkV (t : Fin cfg1.N) (i : S2x8x4096x128.Idx) :
    i ∈ ((cfg1.win 5).blk t).view.set ↔ ∀ a : Fin 4, win1_5.index t a * S1x1x1024x128.size a ≤ (i a).val ∧ (i a).val < win1_5.index t a * S1x1x1024x128.size a + S1x1x1024x128.size a := by
  show i ∈ ((View.whole main_v7_1).slice (win1_5.rect t)).set ↔ _
  rw [View.set_slice_whole, Rect.mem_set_unit]
  exact Iff.rfl

/-- Every element of the key result is in the key block of the point of its batch, head and position tile. -/
theorem coverK (i : S2x8x4096x128.Idx) :
    ∃ t : Fin cfg1.N, (cfg1.win 4).flush t = true ∧ i ∈ ((cfg1.win 4).blk t).view.set := by
  have h0 : (i 0).val < 2 := (i 0).isLt
  have h1 : (i 1).val < 8 := (i 1).isLt
  have h2 : (i 2).val < 4096 := (i 2).isLt
  have h3 : (i 3).val < 128 := (i 3).isLt
  obtain ⟨t, ht, -⟩ := idx_onto ⟨(i 0).val, h0⟩ ⟨(i 1).val, h1⟩ ⟨(i 2).val / 1024, by omega⟩
  have q0 : win1_4.index t (0 : Fin 4) = (i 0).val := congrFun ht 0
  have q1 : win1_4.index t (1 : Fin 4) = (i 1).val := congrFun ht 1
  have q2 : win1_4.index t (2 : Fin 4) = (i 2).val / 1024 := congrFun ht 2
  have q3 : win1_4.index t (3 : Fin 4) = 0 := congrFun ht 3
  refine ⟨t, flush1_4 t, ?_⟩
  rw [mem_blkK]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 1 ≤ (i 1).val ∧ (i 1).val < win1_4.index t (1 : Fin 4) * 1 + 1; omega
  | ⟨2, _⟩ => show win1_4.index t (2 : Fin 4) * 1024 ≤ (i 2).val ∧ (i 2).val < win1_4.index t (2 : Fin 4) * 1024 + 1024; omega
  | ⟨3, _⟩ => show win1_4.index t (3 : Fin 4) * 128 ≤ (i 3).val ∧ (i 3).val < win1_4.index t (3 : Fin 4) * 128 + 128; omega

/-- … and of the value result likewise. -/
theorem coverV (i : S2x8x4096x128.Idx) :
    ∃ t : Fin cfg1.N, (cfg1.win 5).flush t = true ∧ i ∈ ((cfg1.win 5).blk t).view.set := by
  have h0 : (i 0).val < 2 := (i 0).isLt
  have h1 : (i 1).val < 8 := (i 1).isLt
  have h2 : (i 2).val < 4096 := (i 2).isLt
  have h3 : (i 3).val < 128 := (i 3).isLt
  obtain ⟨t, -, ht⟩ := idx_onto ⟨(i 0).val, h0⟩ ⟨(i 1).val, h1⟩ ⟨(i 2).val / 1024, by omega⟩
  have q0 : win1_5.index t (0 : Fin 4) = (i 0).val := congrFun ht 0
  have q1 : win1_5.index t (1 : Fin 4) = (i 1).val := congrFun ht 1
  have q2 : win1_5.index t (2 : Fin 4) = (i 2).val / 1024 := congrFun ht 2
  have q3 : win1_5.index t (3 : Fin 4) = 0 := congrFun ht 3
  refine ⟨t, flush1_5 t, ?_⟩
  rw [mem_blkV]
  intro a
  match a with
  | ⟨0, _⟩ => show win1_5.index t (0 : Fin 4) * 1 ≤ (i 0).val ∧ (i 0).val < win1_5.index t (0 : Fin 4) * 1 + 1; omega
  | ⟨1, _⟩ => show win1_5.index t (1 : Fin 4) * 1 ≤ (i 1).val ∧ (i 1).val < win1_5.index t (1 : Fin 4) * 1 + 1; omega
  | ⟨2, _⟩ => show win1_5.index t (2 : Fin 4) * 1024 ≤ (i 2).val ∧ (i 2).val < win1_5.index t (2 : Fin 4) * 1024 + 1024; omega
  | ⟨3, _⟩ => show win1_5.index t (3 : Fin 4) * 128 ≤ (i 3).val ∧ (i 3).val < win1_5.index t (3 : Fin 4) * 128 + 128; omega

/-- THE KEY ARRAY after the launch: the fused keys of the arrays the launch read. -/
theorem finalK (c : Dev nD) :
    (dat1 V c).arrAt 4 cfg1.N = kFused (V c main_v0) (V c main_arg1) (V c main_arg2) (V c main_v5) :=
  (dat1 V c).arrAt_eq_of_cover 4 _ (fun t _ => flushedK_eq V c t) coverK

/-- THE VALUE ARRAY after the launch: the fused values. -/
theorem finalV (c : Dev nD) :
    (dat1 V c).arrAt 5 cfg1.N = vFused (V c main_v0) (V c main_v5) :=
  (dat1 V c).arrAt_eq_of_cover 5 _ (fun t _ => flushedV_eq V c t) coverV

end Cert.KernelIdeal.WindowKV

end
-- ==== Proof.lean ====
/-
  The fused query/key/value projection with rotary embedding, against its reference, on the extended reals.

  Both programs compute, for every batch, head, position and feature, the same three functions of the six argument
  arrays (Proof/Spec.lean): a projection is the inner product, over all 4096 hidden coordinates, of a position's hidden
  state with a weight row; queries and keys are `p * cos + rot p * sin` of their projections `p`, where `rot` swaps the
  two halves of a head's 128 features and negates the half that moves down; values are the bare projection.

  The reference forms each projection as one contraction, regroups its columns into heads, and builds `rot` by slicing,
  negating and joining (Proof/RefIsSpec.lean reads its run, operation by operation, to the specification).

  The kernel first rounds the hidden states and the weights to a narrower format — the identity on the extended reals —
  and fuses each head's key and value rows into one block (Proof/HostSide.lean). Its first launch computes the queries
  four heads at a time, its second the keys and values a head at a time; every grid point contracts over the whole hidden
  axis in one product, so a point's block is a block of the specification's function (Proof/Tile.lean, Proof/Product.lean,
  Proof/BodyQ.lean, Proof/BodyKV.lean), the blocks tile each result (Proof/WindowQ.lean, Proof/WindowKV.lean), and the
  run ends with the three results at those functions (Proof/KernelRun.lean). The kernel writes the negation as `0 - x`,
  which is `-x` at every extended real. No step uses that the inputs are finite: the two sides are the same sums of the
  same products, term for term.

  The kernel's idealization rewrote no operation, so the claim that it is the kernel's sanctioned idealization is the
  true proposition.
-/
import proofs.«111256_j42640435315444_2_alg».proof.Defs
import proofs.«111256_j42640435315444_2_alg».proof.Proof.Gen.Kernel
import proofs.«111256_j42640435315444_2_alg».proof.Proof.Gen.Kernel.Skeleton
import proofs.«111256_j42640435315444_2_alg».proof.Proof.Gen.Kernel.Launch
import proofs.«111256_j42640435315444_2_alg».proof.Proof.Gen.Kernel.Points
import proofs.«111256_j42640435315444_2_alg».proof.Proof.Gen.Kernel.Frame
import proofs.«111256_j42640435315444_2_alg».proof.Proof.Gen.KernelIdeal
import proofs.«111256_j42640435315444_2_alg».proof.Proof.Gen.KernelIdeal.Skeleton
import proofs.«111256_j42640435315444_2_alg».proof.Proof.Gen.KernelIdeal.Launch
import proofs.«111256_j42640435315444_2_alg».proof.Proof.Gen.KernelIdeal.Points
import proofs.«111256_j42640435315444_2_alg».proof.Proof.Gen.KernelIdeal.Frame
import proofs.«111256_j42640435315444_2_alg».proof.Proof.Gen.ReferenceIdeal
import proofs.«111256_j42640435315444_2_alg».proof.Proof.Gen.ReferenceIdeal.Run
import proofs.«111256_j42640435315444_2_alg».proof.Proof.Gen.ReferenceIdeal.Read
import proofs.«111256_j42640435315444_2_alg».proof.Proof.Gen.Pre_finite_inputs
import proofs.«111256_j42640435315444_2_alg».proof.Proof.Spec
import proofs.«111256_j42640435315444_2_alg».proof.Proof.SpecKV
import proofs.«111256_j42640435315444_2_alg».proof.Proof.RefIsSpec
import proofs.«111256_j42640435315444_2_alg».proof.Proof.KernelRun
import proofs.«111256_j42640435315444_2_alg».proof.Proof.HostSide
import proofs.«111256_j42640435315444_2_alg».proof.Proof.WindowQ
import proofs.«111256_j42640435315444_2_alg».proof.Proof.WindowKV
import Idealize.ShloMosaic.Adequacy
import Idealize.ShloMosaic.Init

noncomputable section

namespace Cert.Proof

open Idealize.ShloMosaic Idealize.ShloMosaic.TcCoe Idealize.SL.Sem Cert.RopeSpec

/-! ## The kernel's three results, read off its run -/

section KernelResults

open Cert.KernelIdeal Cert.KernelIdeal.Gen

variable (m : (ℓ : Loc Cert.KernelIdeal.nD Cert.KernelIdeal.τ Cert.KernelIdeal.sig) → Buf (Elt Ideal) ℓ)
  (ρ : Dev Cert.KernelIdeal.nD → PrngReg)

/-- The query buffer ends at the specification's queries of the arguments. -/
theorem kernel_q (c : Dev Cert.KernelIdeal.nD) :
    W3 m ρ c (Proc.devRef .tc main_v6)
      = qOut (m ((c.tc : Thread nD τ).loc main_arg0)) (m ((c.tc : Thread nD τ).loc main_arg1))
          (m ((c.tc : Thread nD τ).loc main_arg2)) (m ((c.tc : Thread nD τ).loc main_arg3)) := by
  rw [Cert.KernelIdeal.RunOut.W3_main_v6, Cert.KernelIdeal.WindowQ.final (V1 m ρ) c,
    Cert.KernelIdeal.HostSide.v0_eq, Cert.KernelIdeal.HostSide.v1_eq,
    Cert.KernelIdeal.HostSide.arg1_eq, Cert.KernelIdeal.HostSide.arg2_eq]

/-- The key buffer ends at the specification's keys: the fused keys over the fused weight array, whose key rows are
    the key matrix's. -/
theorem kernel_k (c : Dev Cert.KernelIdeal.nD) :
    W3 m ρ c (Proc.devRef .tc main_v7_0)
      = kOut (m ((c.tc : Thread nD τ).loc main_arg0)) (m ((c.tc : Thread nD τ).loc main_arg1))
          (m ((c.tc : Thread nD τ).loc main_arg2)) (m ((c.tc : Thread nD τ).loc main_arg4)) := by
  rw [Cert.KernelIdeal.RunOut.W3_main_v7_0, Cert.KernelIdeal.WindowKV.finalK (V2 m ρ) c,
    Cert.KernelIdeal.HostSide.v2_v0, Cert.KernelIdeal.HostSide.v2_arg1, Cert.KernelIdeal.HostSide.v2_arg2,
    Cert.KernelIdeal.HostSide.v2_v5, Cert.KernelIdeal.HostSide.v0_eq,
    Cert.KernelIdeal.HostSide.arg1_eq, Cert.KernelIdeal.HostSide.arg2_eq]
  exact kFused_eq _ _ _ _ _ fun hd d k => Cert.KernelIdeal.HostSide.v5_key m ρ c hd d k

/-- The value buffer ends at the specification's values: the fused values, whose value rows are the value matrix's. -/
theorem kernel_v (c : Dev Cert.KernelIdeal.nD) :
    W3 m ρ c (Proc.devRef .tc main_v7_1)
      = vOut (m ((c.tc : Thread nD τ).loc main_arg0)) (m ((c.tc : Thread nD τ).loc main_arg5)) := by
  rw [Cert.KernelIdeal.RunOut.W3_main_v7_1, Cert.KernelIdeal.WindowKV.finalV (V2 m ρ) c,
    Cert.KernelIdeal.HostSide.v2_v0, Cert.KernelIdeal.HostSide.v2_v5, Cert.KernelIdeal.HostSide.v0_eq]
  exact vFused_eq _ _ _ fun hd d k => Cert.KernelIdeal.HostSide.v5_val m ρ c hd d k

end KernelResults

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- No operation was rewritten for the ideal reading. -/
theorem preserves : Cert.preserves_Kernel_KernelIdeal := trivial

/-- Both programs, from memories agreeing on the arguments, end with the specification's queries, keys and values. -/
theorem algebraic : Cert.algebraic_KernelIdeal_ReferenceIdeal := by
  intro m ρ m' ρ' _ hagree
  refine ⟨fun c => qOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => kOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg4)),
      fun c => vOut (m ((c.tc : Thread Cert.KernelIdeal.nD Cert.KernelIdeal.τ).loc Cert.KernelIdeal.main_arg0))
        (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.RunOut.run_outputs (F := Ideal) m ρ)
    obtain ⟨h6, h70, h71, hargs⟩ := h c
    exact ⟨h6.trans (kernel_q m ρ c), h70.trans (kernel_k m ρ c), h71.trans (kernel_v m ρ c), hargs⟩
  · refine (θ_run Cert.ReferenceIdeal.defs _ _).mono (fun r h c => ?_) (Cert.ReferenceIdeal.Value.run (F := Ideal) m' ρ')
    obtain ⟨h19, h28, h8, hargs⟩ := h c
    obtain ⟨e0, e1, e2, e3, e4, e5⟩ := hagree c
    refine ⟨?_, ?_, ?_, hargs⟩
    · rw [h19, Cert.ReferenceIdeal.Read.val_main_v19_eq, Cert.RefIsSpec.ref_q, e0, e1, e2, e3]
    · rw [h28, Cert.ReferenceIdeal.Read.val_main_v28_eq, Cert.RefIsSpec.ref_k, e0, e1, e2, e4]
    · rw [h8, Cert.ReferenceIdeal.Read.val_main_v8_eq, Cert.RefIsSpec.ref_v, e0, e5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
